-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x512 : Shape := ⟨2, ![256, 512]⟩
abbrev S128x512 : Shape := ⟨2, ![128, 512]⟩
abbrev S_ : Shape := ⟨0, ![]⟩
abbrev S10000 : Shape := ⟨1, ![10000]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x512 : S_.BroadcastsInDim S256x512 (![] : Fin 0 → Fin S256x512.rank)
  reducesTo_S256x512_S_d0_1 : S256x512.ReducesTo [0, 1] S_
  bcast_S_S128x512 : S_.BroadcastsInDim S128x512 (![] : Fin 0 → Fin S128x512.rank)
  reducesTo_S128x512_S_d0_1 : S128x512.ReducesTo [0, 1] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part1 {F : FTy → Type} [FloatOps F] (main_arg1 : FVec F S10000x10000 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_cst_6 : FVec F S_ .f32 := constant S_ .f32 0x00000000#32
  let main_v19 : FVec F S10000 .f32 := (fun x v => Host.reduceAdd x v reducesTo_S10000x10000_S10000_d1 h_S_) main_arg1 main_cst_6
  let main_cst_7 : FVec F S_ .f32 := constant S_ .f32 0x3F800000#32
  let main_v20 : FVec F S10000 .f32 := broadcastInDim S10000 ![] bcast_S_S10000 main_cst_7
  let main_v21 : FVec F S10000 .f32 := addf main_v19 main_v20
  let main_cst_8 : FVec F S_ .f32 := constant S_ .f32 0x00000000#32
  let main_v22 : FVec F S10000 .f32 := broadcastInDim S10000 ![] bcast_S_S10000 main_cst_8
  let main_v23 : IVec S10000 1 := cmpf .une main_v21 main_v22
  let main_c_9 : IVec S_ 1 := constantI S_ 1 1#1
  let main_v24 : IVec S_ 1 := (fun x v => Host.reduce IntOp.andi x v reducesTo_S10000_S_d0 h_S_) main_v23 main_c_9
  let main_v25 : IVec S_ 1 := andi main_v18 main_v24
  main_v25

def fn {F : FTy → Type} [FloatOps F] (main_arg0 : FVec F S10000x256 .f32) (main_arg1 : FVec F S10000x10000 .f32) (main_arg2 : FVec F S256x512 .f32) (main_arg3 : FVec F S128x512 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg1 main_v13 main_v16
-- ==== Kernel.lean ====
abbrev S10000x256 : Shape := ⟨2, ![10000, 256]⟩
abbrev S10000x10000 : Shape := ⟨2, ![10000, 10000]⟩
abbrev S256x512 : Shape := ⟨2, ![256, 512]⟩
abbrev S128x512 : Shape := ⟨2, ![128, 512]⟩
abbrev S256x256 : Shape := ⟨2, ![256, 256]⟩
abbrev S128x256 : Shape := ⟨2, ![128, 256]⟩
abbrev S256x128 : Shape := ⟨2, ![256, 128]⟩
abbrev S10000x128 : Shape := ⟨2, ![10000, 128]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S400x256 : Shape := ⟨2, ![400, 256]⟩
abbrev S400 : Shape := ⟨1, ![400]⟩

abbrev nBuf : Space → Nat
  | .hbm => 18
  | .vmem => 21
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S128x512, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x512, .f32⟩
  | .hbm, ⟨9, _⟩ => ⟨S128x256, .f32⟩
  | .hbm, ⟨10, _⟩ => ⟨S256x128, .f32⟩
  | .hbm, ⟨11, _⟩ => ⟨S128x256, .f32⟩
  | .hbm, ⟨12, _⟩ => ⟨S256x128, .f32⟩
  | .hbm, ⟨13, _⟩ => ⟨S256x256, .f32⟩
  | .hbm, ⟨14, _⟩ => ⟨S10000x128, .f32⟩
  | .hbm, ⟨15, _⟩ => ⟨S10000x128, .bf16⟩
  | .hbm, ⟨16, _⟩ => ⟨S10000x1, .f32⟩
  | .hbm, ⟨17, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x512, .f32⟩
  | .local _ .vmem, ⟨4, _⟩ => ⟨S256x256, .f32⟩
  | .local _ .vmem, ⟨5, _⟩ => ⟨S400x128, .f32⟩
  | .local _ .vmem, ⟨6, _⟩ => ⟨S400x128, .f32⟩
  | .local _ .vmem, ⟨7, _⟩ => ⟨S400x128, .bf16⟩
  | .local _ .vmem, ⟨8, _⟩ => ⟨S400x128, .bf16⟩
  | .local _ .vmem, ⟨9, _⟩ => ⟨S400x1, .f32⟩
  | .local _ .vmem, ⟨10, _⟩ => ⟨S400x1, .f32⟩
  | .local _ .vmem, ⟨11, _⟩ => ⟨S10000x256, .bf16⟩
  | .local _ .vmem, ⟨12, _⟩ => ⟨S400x10000, .f32⟩
  | .local _ .vmem, ⟨13, _⟩ => ⟨S400x10000, .f32⟩
  | .local _ .vmem, ⟨14, _⟩ => ⟨S10000x128, .bf16⟩
  | .local _ .vmem, ⟨15, _⟩ => ⟨S400x128, .f32⟩
  | .local _ .vmem, ⟨16, _⟩ => ⟨S400x128, .f32⟩
  | .local _ .vmem, ⟨17, _⟩ => ⟨S400x1, .f32⟩
  | .local _ .vmem, ⟨18, _⟩ => ⟨S400x1, .f32⟩
  | .local _ .vmem, ⟨19, _⟩ => ⟨S400x128, .f32⟩
  | .local _ .vmem, ⟨20, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v11 : BitVec 32 := Scalar.muli arg0 c400_i32
  let v12 : Index := Scalar.indexCast v11
  let c0_6 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S256x512_S256x256_0_0 : S256x512.Slices ![0, 0] S256x256
  transposes_S256x256_S256x256_1_0 : S256x256.Transposes [1, 0] S256x256
  slices_S256x512_S256x256_0_256 : S256x512.Slices ![0, 256] S256x256
  concatenates_S256x256_S256x256_S256x512_d1 : Shape.Concatenates [S256x256, S256x256] S256x512 1
  slices_S128x512_S128x256_0_0 : S128x512.Slices ![0, 0] S128x256
  transposes_S128x256_S256x128_1_0 : S128x256.Transposes [1, 0] S256x128
  slices_S128x512_S128x256_0_256 : S128x512.Slices ![0, 256] S128x256
  concatenates_S256x128_S256x128_S256x256_d1 : Shape.Concatenates [S256x128, S256x128] S256x256 1
  inb_S10000x256_S10000x256_0_0 : ∀ a, (![0, 0] : Fin 2 → Nat) a + S10000x256.size a ≤ S10000x256.size a
  h_S10000x256 : 0 < S10000x256.numel
  inb_S256x512_S256x256_0_256 : ∀ a, (![0, 256] : Fin 2 → Nat) a + S256x256.size a ≤ S256x512.size a
  h_S256x256 : 0 < S256x256.numel
  shapeCasts_S256x256_S256x256 : S256x256.ShapeCasts S256x256
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  h_S400x256 : 0 < S400x256.numel
  inb_S256x512_S256x256_0_0 : ∀ a, (![0, 0] : Fin 2 → Nat) a + S256x256.size a ≤ S256x512.size a
  broadcasts_S400x1_S400x256 : S400x1.Broadcasts S400x256
  inb_S256x256_S256x256_0_0 : ∀ a, (![0, 0] : Fin 2 → Nat) a + S256x256.size a ≤ S256x256.size a
  slices_S400x256_o0_0_S400x128 : S400x256.Slices ![0, 0] S400x128
  inb_S400x128_S400x128_0_0 : ∀ a, (![0, 0] : Fin 2 → Nat) a + S400x128.size a ≤ S400x128.size a
  h_S400x128 : 0 < S400x128.numel
  slices_S400x256_o0_128_S400x128 : S400x256.Slices ![0, 128] S400x128
  packedbf16_S400x128_S400x128_0_0 : (Rect.unit (s := S400x128) ![0, 0] S400x128.size inb_S400x128_S400x128_0_0).PackedRows (EltTy.packing .bf16)
  inb_S400x1_S400x1_0_0 : ∀ a, (![0, 0] : Fin 2 → Nat) a + S400x1.size a ≤ S400x1.size a
  h_S400x1 : 0 < S400x1.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400x128_S400x128 : S400x128.ShapeCasts S400x128
  shapeCasts_S400x1_S400x1 : S400x1.ShapeCasts S400x1
  broadcasts_S400x1_S400x128 : S400x1.Broadcasts S400x128
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .bf16 = 32 ∨ (Rect.block (s := S10000x128) S400x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x1.size a ≤ S10000x1.size a
  hwx0_6 : ∀ i : grid0.Coords, EltTy.bits .f32 = 32 ∨ (Rect.block (s := S10000x1) S400x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1.size a ≤ S10000x1.size a
  hwx1_3 : ∀ i : grid1.Coords, EltTy.bits .f32 = 32 ∨ (Rect.block (s := S10000x1) S400x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S400x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S400x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_2) S400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x512 : Shape := ⟨2, ![256, 512]⟩
abbrev S128x512 : Shape := ⟨2, ![128, 512]⟩
abbrev S_ : Shape := ⟨0, ![]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S512x128 : Shape := ⟨2, ![512, 128]⟩
abbrev S10000x128 : Shape := ⟨2, ![10000, 128]⟩

abbrev nBuf : Space → Nat
  | .hbm => 34
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S128x512, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S10000x512, .f32⟩
  | .hbm, ⟨14, _⟩ => ⟨S512x256, .f32⟩
  | .hbm, ⟨15, _⟩ => ⟨S10000x256, .f32⟩
  | .hbm, ⟨16, _⟩ => ⟨S_, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S_, .f32⟩
  | .hbm, ⟨23, _⟩ => ⟨S10000x1, .f32⟩
  | .hbm, ⟨24, _⟩ => ⟨S10000x1, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S10000x512, .f32⟩
  | .hbm, ⟨29, _⟩ => ⟨S512x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S_S10000x256 : S_.BroadcastsInDim S10000x256 (![] : Fin 0 → Fin S10000x256.rank)
  transposes_S128x512_S512x128_1_0 : S128x512.Transposes [1, 0] S512x128
  bcast_S_S10000x128 : S_.BroadcastsInDim S10000x128 (![] : Fin 0 → Fin S10000x128.rank)
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []
  dot_S10000x512_S512x128_S10000x128_1_0_0_1_n_n_wf : DotDims.WF S10000x512 S512x128 S10000x128 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.K.R0Runs.lean ====
/-
  The first call's region, the parts its two control cases share.  The region runs the layer-one body at the
  25 row blocks of the adjacency matrix.  Only at the first block does the body fill its scratch array with
  the projected features (the features times the right half of the first weight matrix); every block then
  reads that array.  So the body has two cases, told apart by the grid coordinate being zero, and the region
  invariant says: before the first block the scratch holds anything, after it the projected features.
  Here: a window's block as the region finds it, that an input window's staging buffer holds its block at
  every point, the case condition in closed form, the staging memrefs at a point, and the scoped buffers that
  ride through the region untouched (the second call's staging buffers).
-/
import proofs.«124770_g29755533426829_cont_9to1_2196_3_alg».proof.Proof.Gen.Kernel.Launch
import proofs.«124770_g29755533426829_cont_9to1_2196_3_alg».proof.Proof.Gen.Kernel.Skeleton
import proofs.«124770_g29755533426829_cont_9to1_2196_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-- The body's one branch condition, from the grid coordinate: "this is the first row block". -/
abbrev cond0_0 (i : grid0.Coords) : Prop := (Scalar.cmpi .ne (Scalar.extui (Scalar.cmpi .eq (BitVec.ofNat 32 (i 0).val) 0#32)) 0#32) = 1#1
/-- It holds at the first point and at no other. -/
theorem hcond0_0 : ∀ t : Fin cfg0.N, cond0_0 (grid0.coords t) ↔ t.val = 0 :=
  (by decide +kernel : ∀ t : Fin grid0.N, cond0_0 (grid0.coords t) ↔ t.val = 0)

/-- Each window's current staging memref at point `t`, and its wholeness. -/
abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x1 .f32 := win0_6.stage (cfg0.slots t 6)
abbrev hs0_6 (t : Fin cfg0.N) : (ms0_6 t).IsWhole := hstage0_6 ((cfg0.slots t 6).cast nbuf0_6)

/-- The scratch array: a whole scoped buffer of the kernel's own. -/
abbrev scM0_0 : Memref sig .tc .vmem S10000x256 .bf16 := Memref.whole cc0_scratch0
abbrev VS0_0 : View sig .tc .vmem S10000x256 .bf16 := scM0_0.view
/-- One staging buffer of each output window, through which its contents are stated. -/
abbrev VO0_4 : View sig .tc .vmem S400x128 .f32 := (Memref.whole cc0_stg4_0 : Memref sig .tc .vmem S400x128 .f32).view
abbrev VO0_5 : View sig .tc .vmem S400x128 .bf16 := (Memref.whole cc0_stg5_0 : Memref sig .tc .vmem S400x128 .bf16).view
abbrev VO0_6 : View sig .tc .vmem S400x1 .f32 := (Memref.whole cc0_stg6_0 : Memref sig .tc .vmem S400x1 .f32).view

/-- The second call's staging buffers, each whole at some contents: scoped buffers the first call never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant of a region with no carried state, with the scratch array as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Hand

end
-- ==== Proof.K.R0RunA.lean ====
/-
  The layer-one body at the FIRST row block: it fills the scratch array with the projected features, reads it back, and stores the three output blocks.
-/
import proofs.«124770_g29755533426829_cont_9to1_2196_3_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each output's staging buffer (and in the scratch array, when this case
    stores into it), last store first, WITH the proof that on whole staging memrefs — the inputs' at their contents,
    the outputs' at anything — the body runs to a continuation that holds the inputs as they were and each stored
    buffer with those pieces written. -/
noncomputable def kernelRun0_A (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i)
    (x0 : Vec F S400x10000 .f32) (x1 : Vec F S10000x256 .f32) (x2 : Vec F S256x512 .f32) (x3 : Vec F S256x256 .f32) :
    Σ' (L4 : List (View.Piece (Elt F) S400x128 .f32)) (L5 : List (View.Piece (Elt F) S400x128 .bf16)) (L6 : List (View.Piece (Elt F) S400x1 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8) K } := by
  refine ⟨?_, ?_, ?_, ?_, fun E K => ?run⟩
  case run =>
    simp only [cc0__l1_kernel_eq_skeleton]; unfold cc0__l1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

end Cert.Kernel.Hand

end
-- ==== Proof.K.R0RunB.lean ====
/-
  The layer-one body at a LATER row block: the scratch array already holds the projected features; the body reads it and stores the three output blocks, leaving the scratch as it was.
-/
import proofs.«124770_g29755533426829_cont_9to1_2196_3_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each output's staging buffer (and in the scratch array, when this case
    stores into it), last store first, WITH the proof that on whole staging memrefs — the inputs' at their contents,
    the outputs' at anything — the body runs to a continuation that holds the inputs as they were and each stored
    buffer with those pieces written. -/
noncomputable def kernelRun0_B (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i)
    (x0 : Vec F S400x10000 .f32) (x1 : Vec F S10000x256 .f32) (x2 : Vec F S256x512 .f32) (x3 : Vec F S256x256 .f32) (xs0 : Vec F S10000x256 .bf16) :
    Σ' (L4 : List (View.Piece (Elt F) S400x128 .f32)) (L5 : List (View.Piece (Elt F) S400x128 .bf16)) (L6 : List (View.Piece (Elt F) S400x1 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8) K } := by
  refine ⟨?_, ?_, ?_, [], fun E K => ?run⟩
  case run =>
    simp only [cc0__l1_kernel_eq_skeleton]; unfold cc0__l1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; isplitr; · ipureintro; exact harg8.read_unread _
    iexact HS0

end Cert.Kernel.Hand

end
-- ==== Proof.K.R0Frame.lean ====
/-
  The first call's region: what its buffers hold point by point, the proof data, and the body obligation.
  The scratch array holds the projected features from the first row block on (`scr`); output block `t` of each
  of the three results is what the body stores there from the adjacency block `t`, the features, the two weight
  arrays and that scratch (`outsAt0`).  The invariant: before the first point the scratch holds anything; after any
  point it holds `scr`.  The second call's staging buffers and the generator register ride along untouched.
-/
import proofs.«124770_g29755533426829_cont_9to1_2196_3_alg».proof.Proof.K.R0RunA
import proofs.«124770_g29755533426829_cont_9to1_2196_3_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in each buffer -/

/-- The stores of this case into output window 4's buffer tile it, so they cover it. -/
theorem cover0_A_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S400x128.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S400x128.size (by sl_kernel_rfl) y
/-- What this case leaves there: its pieces read back. -/
def out0_A_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S400x128 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- The stores of this case into output window 5's buffer tile it, so they cover it. -/
theorem cover0_A_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S400x128.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S400x128.size (by sl_kernel_rfl) y
/-- What this case leaves there: its pieces read back. -/
def out0_A_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S400x128 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3).2.1)

/-- The stores of this case into output window 6's buffer tile it, so they cover it. -/
theorem cover0_A_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S400x1.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S400x1.size (by sl_kernel_rfl) y
/-- What this case leaves there: its pieces read back. -/
def out0_A_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S400x1 .f32 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3).2.2.1)

/-- The stores of this case into the scratch array tile it, so they cover it. -/
theorem scover0_A_0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S10000x256.Idx) :
    ∃ pc ∈ (kernelRun0_A c i arg1 harg1 arg2 harg2 arg3 harg3 arg4 harg4 arg5 harg5 arg6 harg6 arg7 harg7 arg8 harg8 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.2.1 S10000x256.size (by sl_kernel_rfl) y
/-- What this case leaves there: its pieces read back. -/
def sout0_A_0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S10000x256 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.2.2.1)

/-- The stores of this case into output window 4's buffer tile it, so they cover it. -/
theorem cover0_B_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) (y : S400x128.Idx) :
    ∃ pc ∈ (kernelRun0_B c i arg1 harg1 arg2 harg2 arg3 harg3 arg4 harg4 arg5 harg5 arg6 harg6 arg7 harg7 arg8 harg8 hc0 x0 x1 x2 x3 xs0).1, y ∈ pc.1.set :=
  View.cover_of_tiledL (kernelRun0_B c i arg1 harg1 arg2 harg2 arg3 harg3 arg4 harg4 arg5 harg5 arg6 harg6 arg7 harg7 arg8 harg8 hc0 x0 x1 x2 x3 xs0).1 S400x128.size (by sl_kernel_rfl) y
/-- What this case leaves there: its pieces read back. -/
def out0_B_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) : Vec F S400x128 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0).1)

/-- The stores of this case into output window 5's buffer tile it, so they cover it. -/
theorem cover0_B_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) (y : S400x128.Idx) :
    ∃ pc ∈ (kernelRun0_B c i arg1 harg1 arg2 harg2 arg3 harg3 arg4 harg4 arg5 harg5 arg6 harg6 arg7 harg7 arg8 harg8 hc0 x0 x1 x2 x3 xs0).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0).2.1 S400x128.size (by sl_kernel_rfl) y
/-- What this case leaves there: its pieces read back. -/
def out0_B_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) : Vec F S400x128 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 xs0).2.1)

/-- The stores of this case into output window 6's buffer tile it, so they cover it. -/
theorem cover0_B_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) (y : S400x1.Idx) :
    ∃ pc ∈ (kernelRun0_B c i arg1 harg1 arg2 harg2 arg3 harg3 arg4 harg4 arg5 harg5 arg6 harg6 arg7 harg7 arg8 harg8 hc0 x0 x1 x2 x3 xs0).2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0).2.2.1 S400x1.size (by sl_kernel_rfl) y
/-- What this case leaves there: its pieces read back. -/
def out0_B_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) : Vec F S400x1 .f32 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 xs0).2.2.1)

section
variable (V : (c : Dev nD) → (b : Ref sig .tc) → Buf (Elt F) ((c : Thread nD τ).loc b))

/-- The grid's first point. -/
abbrev t0 : Fin cfg0.N := ⟨0, by decide⟩

/-- The scratch array from the first point on: the projected features, as the first point's body leaves them. -/
def scr (c : Dev nD) : Vec F S10000x256 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr rfl) (iblk0 V c 0 t0) (iblk0 V c 1 t0) (iblk0 V c 2 t0) (iblk0 V c 3 t0)

/-- What the three outputs' staging buffers hold after the body at point `t`. -/
def outsAt0 (c : Dev nD) (t : Fin cfg0.N) : Vec F S400x128 .f32 × Vec F S400x128 .bf16 × Vec F S400x1 .f32 :=
  if h : t.val = 0 then
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t))
  else
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c))

theorem outsAt0_A (c : Dev nD) (t : Fin cfg0.N) (h : t.val = 0) :
    outsAt0 V c t = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t)) := dif_pos h
theorem outsAt0_B (c : Dev nD) (t : Fin cfg0.N) (h : ¬t.val = 0) :
    outsAt0 V c t = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c)) := dif_neg h

/-- The region invariant before position `n`: at the start the class's (every scoped buffer at anything); afterwards
    the scratch array at the projected features, the other scoped buffers at anything, the generator register at some state. -/
def PhiS (c : Dev nD) : ℕ → sProp 𝕄
  | 0 => Pipeline.ΦA spec0 c
  | _ + 1 => iprop(iprop(owns (c : Thread nD τ) scM0_0 fullShare (scr V c) ∗ rest0 c) ∗ (∃ r, prngReg c r))

theorem PhiS_zero (c : Dev nD) (n : ℕ) (hz : n = 0) : PhiS V c n = Pipeline.ΦA spec0 c := by subst hz; rfl
theorem PhiS_pos (c : Dev nD) (n : ℕ) (hz : n ≠ 0) :
    PhiS V c n = iprop(iprop(owns (c : Thread nD τ) scM0_0 fullShare (scr V c) ∗ rest0 c) ∗ (∃ r, prngReg c r)) := by
  cases n with
  | zero => exact absurd rfl hz
  | succ n => rfl

/-! ## The pipeline's proof data -/

/-- The proof data of the first pipeline on core `c`: the arrays as the region finds them; after the body at point `t`
    each input's buffer at its block and each output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2.1
    | ⟨6, _⟩ => (outsAt0 V c t).2.2
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem after0_5 (c : Dev nD) (t : Fin cfg0.N) : (dat0 V c).after 5 t = (outsAt0 V c t).2.1 := by dsimp only [dat0]
theorem after0_6 (c : Dev nD) (t : Fin cfg0.N) : (dat0 V c).after 6 t = (outsAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem PhiS_castSucc (c : Dev nD) (t : Fin cfg0.N) : (dat0 V c).Φ t.castSucc = PhiS V c t.val := by
  dsimp only [dat0]; simp only [Fin.coe_castSucc]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4800000 in
/-- The body at any point: the inputs' memrefs hold their blocks; the first point is the filling case, every other the
    reading case; the invariant hands the body the scratch array (at anything before the first point, at the projected
    features later) and takes it back at the projected features. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) from rfl, PhiS_pos V c (t.val + 1) (Nat.succ_ne_zero _)]
  rw [after0_0, after0_1, after0_2, after0_3, after0_4, after0_5, after0_6]
  by_cases hz : t.val = 0
  · obtain rfl : t = t0 := Fin.ext hz
    rw [outsAt0_A V c t0 hz]
    unfold scr sout0_A_0 out0_A_4 out0_A_5 out0_A_6; (try dsimp only)
    rw [PhiS_castSucc V c t0, PhiS_zero V c _ hz, PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr hz) (iblk0 V c 0 t0) (iblk0 V c 1 t0) (iblk0 V c 2 t0) (iblk0 V c 3 t0)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _ _)
  · rw [outsAt0_B V c t hz]
    unfold out0_B_4 out0_B_5 out0_B_6; (try dsimp only)
    rw [PhiS_castSucc V c t, PhiS_pos V c _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => hz ((hcond0_0 t).mp hc)) (iblk0 V c 0 t) (iblk0 V c 1 t) (iblk0 V c 2 t) (iblk0 V c 3 t) (scr V c)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the class's back: the scratch array's contents are forgotten. -/
theorem hout0 (c : Dev nD) : (dat0 V c).Φ (Fin.last cfg0.N) ⊢ Pipeline.ΦA spec0 c := by
  rw [show (dat0 V c).Φ (Fin.last cfg0.N) = PhiS V c cfg0.N from rfl, PhiS_pos V c _ (by decide), PhiA0_eq]
  iintro ⟨⟨HS0, Hrest⟩, Hg⟩
  isplitl [HS0 Hrest]
  · isplitl [HS0]
    · iexists _; iexact HS0
    iexact Hrest
  iexact Hg

end

end Cert.Kernel.Hand

end
-- ==== Proof.K.Region1.lean ====
/- REGION 1 of @main: the second pallas_call (`cc1__l2_kernel`, pipeline 1) as a region of class A, stated at a
   PARAMETER `V`, the TensorCore's buffer contents when the region is entered. Per window its block at a grid point
   (`iblk1`); for the one output window what the body leaves in its buffer as a function of the four input blocks
   (`out1_4`: the single whole-buffer store's payload); the body's triple (`sound_kernel1`); the pipeline's proof
   data (`dat1`) and the body obligation at every point (`body_obligation1`).
   Windows: 0 the [400,10000] row block of the adjacency array, 1 the whole [10000,128] projected-feature array
   (one buffer, fetched at the first point only), 2 the [400,128] block of the self term, 3 the [400,1] block of the
   degrees, 4 the [400,128] OUTPUT block. -/
import proofs.«124770_g29755533426829_cont_9to1_2196_3_alg».proof.Proof.Gen.Kernel.Launch
import proofs.«124770_g29755533426829_cont_9to1_2196_3_alg».proof.Proof.Gen.Kernel.Skeleton
import proofs.«124770_g29755533426829_cont_9to1_2196_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents (`View.cover_of_tiled`) recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, `cc1__l2_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an input not fetched at
    a point has the block index of the point before, the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise: its index map is constant, so it is fetched at the first point only and holds the one
    block — the whole array — at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S400x128 := Rect.unit (s := S400x128) ![0, 0] S400x128.size inb_S400x128_S400x128_0_0
abbrev r1_1 : Rect S400x10000 := Rect.unit (s := S400x10000) ![0, 0] S400x10000.size inb_S400x10000_S400x10000_0_0
abbrev r1_2 : Rect S10000x128 := Rect.unit (s := S10000x128) ![0, 0] S10000x128.size inb_S10000x128_S10000x128_0_0
abbrev r1_3 : Rect S400x1 := Rect.unit (s := S400x1) ![0, 0] S400x1.size inb_S400x1_S400x1_0_0

/-! ## What the body leaves in the output window's buffer -/

/-- Window 4's staging buffer after the body, from the input windows' blocks: its one store, of the payload of the
    four whole-buffer loads, over the whole buffer. -/
def out1_4 (x0 : Vec F S400x10000 .f32) (x1 : Vec F S10000x128 .bf16) (x2 : Vec F S400x128 .f32) (x3 : Vec F S400x1 .f32) : Vec F S400x128 .f32 :=
  View.canon [⟨r1_0, k1_pay1 (View.ld x0 r1_1) (View.ld x1 r1_2) (View.ld x2 r1_0) (View.ld x3 r1_3)⟩]

/-- The store's rectangle is the whole buffer, so it covers it. -/
theorem cover1_4 (p0 : Vec F S400x128 .f32) (y : S400x128.Idx) :
    ∃ pc ∈ ([⟨r1_0, p0⟩] : List (View.Piece (Elt F) S400x128 .f32)), y ∈ pc.1.set :=
  View.cover_of_tiled [⟨r1_0, p0⟩] S400x128.size (by rfl) y

/-! ## The body's triple -/

set_option maxHeartbeats 1000000 in
/-- The kernel body on whole staging memrefs, the four inputs' at read contents `x0 … x3` and the output's at anything,
    runs to the continuation holding the inputs' as they were and the output's at `out1_4` of the inputs'. (The body
    also loads the output's buffer before storing into it and uses nothing of what it read.) -/
theorem sound_kernel1 (c : Dev nD) (E : Set ℕ) (i : grid1.Coords) (arg1 : Memref sig .tc .vmem S400x10000 .f32) (harg1 : arg1.IsWhole) (arg2 : Memref sig .tc .vmem S10000x128 .bf16) (harg2 : arg2.IsWhole) (arg3 : Memref sig .tc .vmem S400x128 .f32) (harg3 : arg3.IsWhole) (arg4 : Memref sig .tc .vmem S400x1 .f32) (harg4 : arg4.IsWhole) (arg5 : Memref sig .tc .vmem S400x128 .f32) (harg5 : arg5.IsWhole)
    (x0 : Vec F S400x10000 .f32) (x1 : Vec F S10000x128 .bf16) (x2 : Vec F S400x128 .f32) (x3 : Vec F S400x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__l2_kernel i arg1 harg1 arg2 harg2 arg3 harg3 arg4 harg4 arg5 harg5) K := by
  simp only [cc1__l2_kernel_eq_skeleton]; unfold cc1__l2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The whole program as three segments: the ten host operations that rearrange the two weight arrays, then the
  two regions.  The buffers' contents at each boundary are named (`W0` at launch, `W1` after the host operations,
  `W2` after the first region, `W3` at the end): a region leaves each of its arrays at what its write-backs
  fold to and every other buffer as it found it.  From the segments: every execution terminates, and every
  unscoped buffer ends at `W3`; the four argument arrays are never written, so they end as launched.
-/
import proofs.«124770_g29755533426829_cont_9to1_2196_3_alg».proof.Proof.K.R0Frame
import proofs.«124770_g29755533426829_cont_9to1_2196_3_alg».proof.Proof.K.Region1
import proofs.«124770_g29755533426829_cont_9to1_2196_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := Cert.Kernel.Gen.V1_of m c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := Cert.Kernel.Gen.V1_of m c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := Cert.Kernel.Gen.V1_of m c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := Cert.Kernel.Gen.V1_of m c main_arg3 (by decide)
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the boundary's contents, left at the next
    boundary's.  Its arrays are split out of the unscoped buffers and put back at their exit contents; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's.  Its arrays are split out of the unscoped buffers and put back at their exit contents; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub Cert.Kernel.Gen.hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and every unscoped buffer ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI.R0Runs.lean ====
/-
  The first call's region, the parts its two control cases share.  The region runs the layer-one body at the
  25 row blocks of the adjacency matrix.  Only at the first block does the body fill its scratch array with
  the projected features (the features times the right half of the first weight matrix); every block then
  reads that array.  So the body has two cases, told apart by the grid coordinate being zero, and the region
  invariant says: before the first block the scratch holds anything, after it the projected features.
  Here: a window's block as the region finds it, that an input window's staging buffer holds its block at
  every point, the case condition in closed form, the staging memrefs at a point, and the scoped buffers that
  ride through the region untouched (the second call's staging buffers).
-/
import proofs.«124770_g29755533426829_cont_9to1_2196_3_alg».proof.Proof.Gen.KernelIdeal.Launch
import proofs.«124770_g29755533426829_cont_9to1_2196_3_alg».proof.Proof.Gen.KernelIdeal.Skeleton
import proofs.«124770_g29755533426829_cont_9to1_2196_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-- The body's one branch condition, from the grid coordinate: "this is the first row block". -/
abbrev cond0_0 (i : grid0.Coords) : Prop := (Scalar.cmpi .ne (Scalar.extui (Scalar.cmpi .eq (BitVec.ofNat 32 (i 0).val) 0#32)) 0#32) = 1#1
/-- It holds at the first point and at no other. -/
theorem hcond0_0 : ∀ t : Fin cfg0.N, cond0_0 (grid0.coords t) ↔ t.val = 0 :=
  (by decide +kernel : ∀ t : Fin grid0.N, cond0_0 (grid0.coords t) ↔ t.val = 0)

/-- Each window's current staging memref at point `t`, and its wholeness. -/
abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x1 .f32 := win0_6.stage (cfg0.slots t 6)
abbrev hs0_6 (t : Fin cfg0.N) : (ms0_6 t).IsWhole := hstage0_6 ((cfg0.slots t 6).cast nbuf0_6)

/-- The scratch array: a whole scoped buffer of the kernel's own. -/
abbrev scM0_0 : Memref sig .tc .vmem S10000x256 .bf16 := Memref.whole cc0_scratch0
abbrev VS0_0 : View sig .tc .vmem S10000x256 .bf16 := scM0_0.view
/-- One staging buffer of each output window, through which its contents are stated. -/
abbrev VO0_4 : View sig .tc .vmem S400x128 .f32 := (Memref.whole cc0_stg4_0 : Memref sig .tc .vmem S400x128 .f32).view
abbrev VO0_5 : View sig .tc .vmem S400x128 .bf16 := (Memref.whole cc0_stg5_0 : Memref sig .tc .vmem S400x128 .bf16).view
abbrev VO0_6 : View sig .tc .vmem S400x1 .f32 := (Memref.whole cc0_stg6_0 : Memref sig .tc .vmem S400x1 .f32).view

/-- The second call's staging buffers, each whole at some contents: scoped buffers the first call never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant of a region with no carried state, with the scratch array as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Hand

end
-- ==== Proof.KI.R0RunA.lean ====
/-
  The layer-one body at the FIRST row block: it fills the scratch array with the projected features, reads it back, and stores the three output blocks.
-/
import proofs.«124770_g29755533426829_cont_9to1_2196_3_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each output's staging buffer (and in the scratch array, when this case
    stores into it), last store first, WITH the proof that on whole staging memrefs — the inputs' at their contents,
    the outputs' at anything — the body runs to a continuation that holds the inputs as they were and each stored
    buffer with those pieces written. -/
noncomputable def kernelRun0_A (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i)
    (x0 : Vec F S400x10000 .f32) (x1 : Vec F S10000x256 .f32) (x2 : Vec F S256x512 .f32) (x3 : Vec F S256x256 .f32) :
    Σ' (L4 : List (View.Piece (Elt F) S400x128 .f32)) (L5 : List (View.Piece (Elt F) S400x128 .bf16)) (L6 : List (View.Piece (Elt F) S400x1 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8) K } := by
  refine ⟨?_, ?_, ?_, ?_, fun E K => ?run⟩
  case run =>
    simp only [cc0__l1_kernel_eq_skeleton]; unfold cc0__l1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

end Cert.KernelIdeal.Hand

end
-- ==== Proof.KI.R0RunB.lean ====
/-
  The layer-one body at a LATER row block: the scratch array already holds the projected features; the body reads it and stores the three output blocks, leaving the scratch as it was.
-/
import proofs.«124770_g29755533426829_cont_9to1_2196_3_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each output's staging buffer (and in the scratch array, when this case
    stores into it), last store first, WITH the proof that on whole staging memrefs — the inputs' at their contents,
    the outputs' at anything — the body runs to a continuation that holds the inputs as they were and each stored
    buffer with those pieces written. -/
noncomputable def kernelRun0_B (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i)
    (x0 : Vec F S400x10000 .f32) (x1 : Vec F S10000x256 .f32) (x2 : Vec F S256x512 .f32) (x3 : Vec F S256x256 .f32) (xs0 : Vec F S10000x256 .bf16) :
    Σ' (L4 : List (View.Piece (Elt F) S400x128 .f32)) (L5 : List (View.Piece (Elt F) S400x128 .bf16)) (L6 : List (View.Piece (Elt F) S400x1 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8) K } := by
  refine ⟨?_, ?_, ?_, [], fun E K => ?run⟩
  case run =>
    simp only [cc0__l1_kernel_eq_skeleton]; unfold cc0__l1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; isplitr; · ipureintro; exact harg8.read_unread _
    iexact HS0

end Cert.KernelIdeal.Hand

end
-- ==== Proof.KI.R0Frame.lean ====
/-
  The first call's region: what its buffers hold point by point, the proof data, and the body obligation.
  The scratch array holds the projected features from the first row block on (`scr`); output block `t` of each
  of the three results is what the body stores there from the adjacency block `t`, the features, the two weight
  arrays and that scratch (`outsAt0`).  The invariant: before the first point the scratch holds anything; after any
  point it holds `scr`.  The second call's staging buffers and the generator register ride along untouched.
-/
import proofs.«124770_g29755533426829_cont_9to1_2196_3_alg».proof.Proof.KI.R0RunA
import proofs.«124770_g29755533426829_cont_9to1_2196_3_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in each buffer -/

/-- The stores of this case into output window 4's buffer tile it, so they cover it. -/
theorem cover0_A_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S400x128.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S400x128.size (by sl_kernel_rfl) y
/-- What this case leaves there: its pieces read back. -/
def out0_A_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S400x128 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- The stores of this case into output window 5's buffer tile it, so they cover it. -/
theorem cover0_A_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S400x128.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S400x128.size (by sl_kernel_rfl) y
/-- What this case leaves there: its pieces read back. -/
def out0_A_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S400x128 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3).2.1)

/-- The stores of this case into output window 6's buffer tile it, so they cover it. -/
theorem cover0_A_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S400x1.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S400x1.size (by sl_kernel_rfl) y
/-- What this case leaves there: its pieces read back. -/
def out0_A_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S400x1 .f32 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3).2.2.1)

/-- The stores of this case into the scratch array tile it, so they cover it. -/
theorem scover0_A_0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) (y : S10000x256.Idx) :
    ∃ pc ∈ (kernelRun0_A c i arg1 harg1 arg2 harg2 arg3 harg3 arg4 harg4 arg5 harg5 arg6 harg6 arg7 harg7 arg8 harg8 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.2.1 S10000x256.size (by sl_kernel_rfl) y
/-- What this case leaves there: its pieces read back. -/
def sout0_A_0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) : Vec F S10000x256 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.2.2.1)

/-- The stores of this case into output window 4's buffer tile it, so they cover it. -/
theorem cover0_B_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) (y : S400x128.Idx) :
    ∃ pc ∈ (kernelRun0_B c i arg1 harg1 arg2 harg2 arg3 harg3 arg4 harg4 arg5 harg5 arg6 harg6 arg7 harg7 arg8 harg8 hc0 x0 x1 x2 x3 xs0).1, y ∈ pc.1.set :=
  View.cover_of_tiledL (kernelRun0_B c i arg1 harg1 arg2 harg2 arg3 harg3 arg4 harg4 arg5 harg5 arg6 harg6 arg7 harg7 arg8 harg8 hc0 x0 x1 x2 x3 xs0).1 S400x128.size (by sl_kernel_rfl) y
/-- What this case leaves there: its pieces read back. -/
def out0_B_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) : Vec F S400x128 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0).1)

/-- The stores of this case into output window 5's buffer tile it, so they cover it. -/
theorem cover0_B_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) (y : S400x128.Idx) :
    ∃ pc ∈ (kernelRun0_B c i arg1 harg1 arg2 harg2 arg3 harg3 arg4 harg4 arg5 harg5 arg6 harg6 arg7 harg7 arg8 harg8 hc0 x0 x1 x2 x3 xs0).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0).2.1 S400x128.size (by sl_kernel_rfl) y
/-- What this case leaves there: its pieces read back. -/
def out0_B_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) : Vec F S400x128 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 xs0).2.1)

/-- The stores of this case into output window 6's buffer tile it, so they cover it. -/
theorem cover0_B_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) (y : S400x1.Idx) :
    ∃ pc ∈ (kernelRun0_B c i arg1 harg1 arg2 harg2 arg3 harg3 arg4 harg4 arg5 harg5 arg6 harg6 arg7 harg7 arg8 harg8 hc0 x0 x1 x2 x3 xs0).2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0).2.2.1 S400x1.size (by sl_kernel_rfl) y
/-- What this case leaves there: its pieces read back. -/
def out0_B_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) : Vec F S400x1 .f32 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 xs0).2.2.1)

section
variable (V : (c : Dev nD) → (b : Ref sig .tc) → Buf (Elt F) ((c : Thread nD τ).loc b))

/-- The grid's first point. -/
abbrev t0 : Fin cfg0.N := ⟨0, by decide⟩

/-- The scratch array from the first point on: the projected features, as the first point's body leaves them. -/
def scr (c : Dev nD) : Vec F S10000x256 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr rfl) (iblk0 V c 0 t0) (iblk0 V c 1 t0) (iblk0 V c 2 t0) (iblk0 V c 3 t0)

/-- What the three outputs' staging buffers hold after the body at point `t`. -/
def outsAt0 (c : Dev nD) (t : Fin cfg0.N) : Vec F S400x128 .f32 × Vec F S400x128 .bf16 × Vec F S400x1 .f32 :=
  if h : t.val = 0 then
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t))
  else
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c))

theorem outsAt0_A (c : Dev nD) (t : Fin cfg0.N) (h : t.val = 0) :
    outsAt0 V c t = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk0 V c 0 t) (iblk0 V c 1 t) (iblk0 V c 2 t) (iblk0 V c 3 t)) := dif_pos h
theorem outsAt0_B (c : Dev nD) (t : Fin cfg0.N) (h : ¬t.val = 0) :
    outsAt0 V c t = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk0 V c 0 t) (iblk0 V c 1 t) (iblk0 V c 2 t) (iblk0 V c 3 t) (scr V c)) := dif_neg h

/-- The region invariant before position `n`: at the start the class's (every scoped buffer at anything); afterwards
    the scratch array at the projected features, the other scoped buffers at anything, the generator register at some state. -/
def PhiS (c : Dev nD) : ℕ → sProp 𝕄
  | 0 => Pipeline.ΦA spec0 c
  | _ + 1 => iprop(iprop(owns (c : Thread nD τ) scM0_0 fullShare (scr V c) ∗ rest0 c) ∗ (∃ r, prngReg c r))

theorem PhiS_zero (c : Dev nD) (n : ℕ) (hz : n = 0) : PhiS V c n = Pipeline.ΦA spec0 c := by subst hz; rfl
theorem PhiS_pos (c : Dev nD) (n : ℕ) (hz : n ≠ 0) :
    PhiS V c n = iprop(iprop(owns (c : Thread nD τ) scM0_0 fullShare (scr V c) ∗ rest0 c) ∗ (∃ r, prngReg c r)) := by
  cases n with
  | zero => exact absurd rfl hz
  | succ n => rfl

/-! ## The pipeline's proof data -/

/-- The proof data of the first pipeline on core `c`: the arrays as the region finds them; after the body at point `t`
    each input's buffer at its block and each output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2.1
    | ⟨6, _⟩ => (outsAt0 V c t).2.2
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem after0_5 (c : Dev nD) (t : Fin cfg0.N) : (dat0 V c).after 5 t = (outsAt0 V c t).2.1 := by dsimp only [dat0]
theorem after0_6 (c : Dev nD) (t : Fin cfg0.N) : (dat0 V c).after 6 t = (outsAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem PhiS_castSucc (c : Dev nD) (t : Fin cfg0.N) : (dat0 V c).Φ t.castSucc = PhiS V c t.val := by
  dsimp only [dat0]; simp only [Fin.coe_castSucc]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4800000 in
/-- The body at any point: the inputs' memrefs hold their blocks; the first point is the filling case, every other the
    reading case; the invariant hands the body the scratch array (at anything before the first point, at the projected
    features later) and takes it back at the projected features. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) from rfl, PhiS_pos V c (t.val + 1) (Nat.succ_ne_zero _)]
  rw [after0_0, after0_1, after0_2, after0_3, after0_4, after0_5, after0_6]
  by_cases hz : t.val = 0
  · obtain rfl : t = t0 := Fin.ext hz
    rw [outsAt0_A V c t0 hz]
    unfold scr sout0_A_0 out0_A_4 out0_A_5 out0_A_6; (try dsimp only)
    rw [PhiS_castSucc V c t0, PhiS_zero V c _ hz, PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr hz) (iblk0 V c 0 t0) (iblk0 V c 1 t0) (iblk0 V c 2 t0) (iblk0 V c 3 t0)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _ _)
  · rw [outsAt0_B V c t hz]
    unfold out0_B_4 out0_B_5 out0_B_6; (try dsimp only)
    rw [PhiS_castSucc V c t, PhiS_pos V c _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => hz ((hcond0_0 t).mp hc)) (iblk0 V c 0 t) (iblk0 V c 1 t) (iblk0 V c 2 t) (iblk0 V c 3 t) (scr V c)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the class's back: the scratch array's contents are forgotten. -/
theorem hout0 (c : Dev nD) : (dat0 V c).Φ (Fin.last cfg0.N) ⊢ Pipeline.ΦA spec0 c := by
  rw [show (dat0 V c).Φ (Fin.last cfg0.N) = PhiS V c cfg0.N from rfl, PhiS_pos V c _ (by decide), PhiA0_eq]
  iintro ⟨⟨HS0, Hrest⟩, Hg⟩
  isplitl [HS0 Hrest]
  · isplitl [HS0]
    · iexists _; iexact HS0
    iexact Hrest
  iexact Hg

end

end Cert.KernelIdeal.Hand

end
-- ==== Proof.KI.Region1.lean ====
/- REGION 1 of @main: the second pallas_call (`cc1__l2_kernel`, pipeline 1) as a region of class A, stated at a
   PARAMETER `V`, the TensorCore's buffer contents when the region is entered. Per window its block at a grid point
   (`iblk1`); for the one output window what the body leaves in its buffer as a function of the four input blocks
   (`out1_4`: the single whole-buffer store's payload); the body's triple (`sound_kernel1`); the pipeline's proof
   data (`dat1`) and the body obligation at every point (`body_obligation1`).
   Windows: 0 the [400,10000] row block of the adjacency array, 1 the whole [10000,128] projected-feature array
   (one buffer, fetched at the first point only), 2 the [400,128] block of the self term, 3 the [400,1] block of the
   degrees, 4 the [400,128] OUTPUT block. -/
import proofs.«124770_g29755533426829_cont_9to1_2196_3_alg».proof.Proof.Gen.KernelIdeal.Launch
import proofs.«124770_g29755533426829_cont_9to1_2196_3_alg».proof.Proof.Gen.KernelIdeal.Skeleton
import proofs.«124770_g29755533426829_cont_9to1_2196_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents (`View.cover_of_tiled`) recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, `cc1__l2_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an input not fetched at
    a point has the block index of the point before, the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise: its index map is constant, so it is fetched at the first point only and holds the one
    block — the whole array — at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S400x128 := Rect.unit (s := S400x128) ![0, 0] S400x128.size inb_S400x128_S400x128_0_0
abbrev r1_1 : Rect S400x10000 := Rect.unit (s := S400x10000) ![0, 0] S400x10000.size inb_S400x10000_S400x10000_0_0
abbrev r1_2 : Rect S10000x128 := Rect.unit (s := S10000x128) ![0, 0] S10000x128.size inb_S10000x128_S10000x128_0_0
abbrev r1_3 : Rect S400x1 := Rect.unit (s := S400x1) ![0, 0] S400x1.size inb_S400x1_S400x1_0_0

/-! ## What the body leaves in the output window's buffer -/

/-- Window 4's staging buffer after the body, from the input windows' blocks: its one store, of the payload of the
    four whole-buffer loads, over the whole buffer. -/
def out1_4 (x0 : Vec F S400x10000 .f32) (x1 : Vec F S10000x128 .bf16) (x2 : Vec F S400x128 .f32) (x3 : Vec F S400x1 .f32) : Vec F S400x128 .f32 :=
  View.canon [⟨r1_0, k1_pay1 (View.ld x0 r1_1) (View.ld x1 r1_2) (View.ld x2 r1_0) (View.ld x3 r1_3)⟩]

/-- The store's rectangle is the whole buffer, so it covers it. -/
theorem cover1_4 (p0 : Vec F S400x128 .f32) (y : S400x128.Idx) :
    ∃ pc ∈ ([⟨r1_0, p0⟩] : List (View.Piece (Elt F) S400x128 .f32)), y ∈ pc.1.set :=
  View.cover_of_tiled [⟨r1_0, p0⟩] S400x128.size (by rfl) y

/-! ## The body's triple -/

set_option maxHeartbeats 1000000 in
/-- The kernel body on whole staging memrefs, the four inputs' at read contents `x0 … x3` and the output's at anything,
    runs to the continuation holding the inputs' as they were and the output's at `out1_4` of the inputs'. (The body
    also loads the output's buffer before storing into it and uses nothing of what it read.) -/
theorem sound_kernel1 (c : Dev nD) (E : Set ℕ) (i : grid1.Coords) (arg1 : Memref sig .tc .vmem S400x10000 .f32) (harg1 : arg1.IsWhole) (arg2 : Memref sig .tc .vmem S10000x128 .bf16) (harg2 : arg2.IsWhole) (arg3 : Memref sig .tc .vmem S400x128 .f32) (harg3 : arg3.IsWhole) (arg4 : Memref sig .tc .vmem S400x1 .f32) (harg4 : arg4.IsWhole) (arg5 : Memref sig .tc .vmem S400x128 .f32) (harg5 : arg5.IsWhole)
    (x0 : Vec F S400x10000 .f32) (x1 : Vec F S10000x128 .bf16) (x2 : Vec F S400x128 .f32) (x3 : Vec F S400x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__l2_kernel i arg1 harg1 arg2 harg2 arg3 harg3 arg4 harg4 arg5 harg5) K := by
  simp only [cc1__l2_kernel_eq_skeleton]; unfold cc1__l2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The whole program as three segments: the ten host operations that rearrange the two weight arrays, then the
  two regions.  The buffers' contents at each boundary are named (`W0` at launch, `W1` after the host operations,
  `W2` after the first region, `W3` at the end): a region leaves each of its arrays at what its write-backs
  fold to and every other buffer as it found it.  From the segments: every execution terminates, and every
  unscoped buffer ends at `W3`; the four argument arrays are never written, so they end as launched.
-/
import proofs.«124770_g29755533426829_cont_9to1_2196_3_alg».proof.Proof.KI.R0Frame
import proofs.«124770_g29755533426829_cont_9to1_2196_3_alg».proof.Proof.KI.Region1
import proofs.«124770_g29755533426829_cont_9to1_2196_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := Cert.KernelIdeal.Gen.V1_of m c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := Cert.KernelIdeal.Gen.V1_of m c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := Cert.KernelIdeal.Gen.V1_of m c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := Cert.KernelIdeal.Gen.V1_of m c main_arg3 (by decide)
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the boundary's contents, left at the next
    boundary's.  Its arrays are split out of the unscoped buffers and put back at their exit contents; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's.  Its arrays are split out of the unscoped buffers and put back at their exit contents; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub Cert.KernelIdeal.Gen.hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and every unscoped buffer ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.Spec.lean ====
/-
  The two-layer neighbourhood-averaging network, as one function of its four argument arrays over the
  extended reals.  Write x for the node features (10000 × 256), A for the dense adjacency (10000 × 10000),
  W1 (256 × 512) and W2 (128 × 512) for the two layers' weights, each split in a left half (columns 0..255,
  applied to a node's own features) and a right half (columns 256..511, applied to the neighbourhood average).
  With deg r = (Σ_k A[r,k]) + 1:

    proj1[i,j] = Σ_k x[i,k] · W1[j,256+k]
    hid[r,j]   = max (Σ_k x[r,k] · W1[j,k] + (Σ_i A[r,i] · proj1[i,j]) / deg r) 0
    self2[r,e] = Σ_j hid[r,j] · W2[e,j]          proj2[r,e] = Σ_j hid[r,j] · W2[e,256+j]
    out[r,e]   = max (self2[r,e] + (Σ_i A[r,i] · proj2[i,e]) / deg r) 0

  This is the arrangement that projects first and aggregates second; the arrangement that aggregates
  first, divides, concatenates and then projects gives the same numbers whenever every entry is a real
  number and no deg r is zero (distributivity and the exchange of two finite sums).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals of the given extents. -/
abbrev Mat (a b : Nat) : Type := (⟨2, ![a, b]⟩ : Shape).Idx → EReal

/-- Column `k` of a weight matrix's left half. -/
abbrev lo (k : Fin 256) : Fin 512 := ⟨k.val, by omega⟩
/-- Column `k` of a weight matrix's right half. -/
abbrev hi (k : Fin 256) : Fin 512 := ⟨256 + k.val, by omega⟩

/-- A node's degree plus one: the divisor of its neighbourhood average. -/
def deg (adj : Mat 10000 10000) (r : Fin 10000) : EReal := (∑ k : Fin 10000, adj (ix2 r k)) + 1

/-- The first layer's neighbour projection: the features through the right half of `W1`. -/
def proj1 (x : Mat 10000 256) (W1 : Mat 256 512) (i : Fin 10000) (j : Fin 256) : EReal :=
  ∑ k : Fin 256, x (ix2 i k) * W1 (ix2 j (hi k))

/-- The hidden layer. -/
def hid (x : Mat 10000 256) (adj : Mat 10000 10000) (W1 : Mat 256 512) (r : Fin 10000) (j : Fin 256) : EReal :=
  max ((∑ k : Fin 256, x (ix2 r k) * W1 (ix2 j (lo k)))
    + Ideal.div (∑ i : Fin 10000, adj (ix2 r i) * proj1 x W1 i j) (deg adj r)) 0

/-- The second layer's self term: the hidden layer through the left half of `W2`. -/
def self2 (x : Mat 10000 256) (adj : Mat 10000 10000) (W1 : Mat 256 512) (W2 : Mat 128 512) (r : Fin 10000) (e : Fin 128) : EReal :=
  ∑ j : Fin 256, hid x adj W1 r j * W2 (ix2 e (lo j))

/-- The second layer's neighbour projection: the hidden layer through the right half of `W2`. -/
def proj2 (x : Mat 10000 256) (adj : Mat 10000 10000) (W1 : Mat 256 512) (W2 : Mat 128 512) (r : Fin 10000) (e : Fin 128) : EReal :=
  ∑ j : Fin 256, hid x adj W1 r j * W2 (ix2 e (hi j))

/-- The network's output entry. -/
def out (x : Mat 10000 256) (adj : Mat 10000 10000) (W1 : Mat 256 512) (W2 : Mat 128 512) (r : Fin 10000) (e : Fin 128) : EReal :=
  max (self2 x adj W1 W2 r e
    + Ideal.div (∑ i : Fin 10000, adj (ix2 r i) * proj2 x adj W1 W2 i e) (deg adj r)) 0

/-- The network's output array. -/
def outArr (x : Mat 10000 256) (adj : Mat 10000 10000) (W1 : Mat 256 512) (W2 : Mat 128 512) : Mat 10000 128 :=
  fun j => out x adj W1 W2 ⟨(j 0).val, idx2_lt0 j⟩ ⟨(j 1).val, idx2_lt1 j⟩

end Cert.Sage

end
-- ==== Proof.KI.HostPrefix.lean ====
/-
  The weights as the kernel's first pallas_call receives them.  Before it, the program rearranges each
  weight matrix on the host: the left half of the columns transposed, beside the right half of the columns
  transposed.  For W1 (256 × 512) that is the 256 × 512 array c1 with c1[k, j] = W1[j, k] and
  c1[k, 256 + j] = W1[j, 256 + k]; for W2 (128 × 512) the 256 × 256 array c2 with c2[j, e] = W2[e, j] and
  c2[j, 128 + e] = W2[e, 256 + j].  The two node arrays are not touched.
-/
import proofs.«124770_g29755533426829_cont_9to1_2196_3_alg».proof.Proof.Gen.KernelIdeal.Launch
import proofs.«124770_g29755533426829_cont_9to1_2196_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- The first layer's weights rearranged: [W1[:, :256]ᵀ | W1[:, 256:]ᵀ]. -/
def c1of (W1 : FVec F S256x512 .f32) : FVec F S256x512 .f32 :=
  concatenate S256x512 1
    [⟨S256x256, transpose S256x256 [1, 0] (extractStridedSlice S256x256 ![0, 0] W1 slices_S256x512_S256x256_0_0) transposes_S256x256_S256x256_1_0⟩,
     ⟨S256x256, transpose S256x256 [1, 0] (extractStridedSlice S256x256 ![0, 256] W1 slices_S256x512_S256x256_0_256) transposes_S256x256_S256x256_1_0⟩]
    concatenates_S256x256_S256x256_S256x512_d1

/-- The second layer's weights rearranged: [W2[:, :256]ᵀ | W2[:, 256:]ᵀ]. -/
def c2of (W2 : FVec F S128x512 .f32) : FVec F S256x256 .f32 :=
  concatenate S256x256 1
    [⟨S256x128, transpose S256x128 [1, 0] (extractStridedSlice S128x256 ![0, 0] W2 slices_S128x512_S128x256_0_0) transposes_S128x256_S256x128_1_0⟩,
     ⟨S256x128, transpose S256x128 [1, 0] (extractStridedSlice S128x256 ![0, 256] W2 slices_S128x512_S128x256_0_256) transposes_S128x256_S256x128_1_0⟩]
    concatenates_S256x128_S256x128_S256x256_d1

section Run
variable (m : (ℓ : Loc nD τ sig) → Buf (Elt F) ℓ) (c : Dev nD)

/-- After the host operations the first rearranged weight array holds c1 of the first weight argument. -/
theorem after_main_v4 :
    StableHlo.after (hostOps0 (F := F)) (fun b => m (c, b)) (Proc.devRef .tc main_v4) = c1of (m ((c : Thread nD τ).loc main_arg2)) := by
  show StableHlo.after hostOps0 (fun b => m (c, b)) (Proc.devRef .tc main_v4) = _
  after_results
  rfl

/-- After the host operations the second rearranged weight array holds c2 of the second weight argument. -/
theorem after_main_v9 :
    StableHlo.after (hostOps0 (F := F)) (fun b => m (c, b)) (Proc.devRef .tc main_v9) = c2of (m ((c : Thread nD τ).loc main_arg3)) := by
  show StableHlo.after hostOps0 (fun b => m (c, b)) (Proc.devRef .tc main_v9) = _
  after_results
  rfl

/-- The host operations leave the node features as they were. -/
theorem after_main_arg0 :
    StableHlo.after (hostOps0 (F := F)) (fun b => m (c, b)) (Proc.devRef .tc main_arg0) = m ((c : Thread nD τ).loc main_arg0) := by
  show StableHlo.after hostOps0 (fun b => m (c, b)) (Proc.devRef .tc main_arg0) = _
  after_results

/-- The host operations leave the adjacency as it was. -/
theorem after_main_arg1 :
    StableHlo.after (hostOps0 (F := F)) (fun b => m (c, b)) (Proc.devRef .tc main_arg1) = m ((c : Thread nD τ).loc main_arg1) := by
  show StableHlo.after hostOps0 (fun b => m (c, b)) (Proc.devRef .tc main_arg1) = _
  after_results

end Run

/-! ## The rearranged weights at an index -/

/-- c1[k, j] = W1[j, k] for a column j of the left half. -/
theorem c1of_lo (W1 : FVec F S256x512 .f32) (k j : Fin 256) :
    c1of W1 (ix2 k (Cert.Sage.lo j)) = W1 (ix2 j (Cert.Sage.lo k)) := by
  unfold c1of
  refine (concatenate_pair_apply_left (t := S256x512) (s₁ := S256x256) (s₂ := S256x256) (1 : Fin 2) _ _
    concatenates_S256x256_S256x256_S256x512_d1 (ix2 k (Cert.Sage.lo j)) rfl (ix2 k j) (fun b => by
      match b with
      | ⟨0, _⟩ => rfl
      | ⟨1, _⟩ => rfl)).trans ?_
  refine (transpose_apply [1, 0] _ transposes_S256x256_S256x256_1_0 (ix2 k j) (ix2 j k) (fun b => by
      match b with
      | ⟨0, _⟩ => rfl
      | ⟨1, _⟩ => rfl)).trans ?_
  exact extractStridedSlice_apply ![0, 0] W1 slices_S256x512_S256x256_0_0 (ix2 j k) (ix2 j (Cert.Sage.lo k)) (fun a => by
      match a with
      | ⟨0, _⟩ => show j.val = 0 + j.val; omega
      | ⟨1, _⟩ => show k.val = 0 + k.val; omega)

/-- c1[k, 256 + j] = W1[j, 256 + k]. -/
theorem c1of_hi (W1 : FVec F S256x512 .f32) (k j : Fin 256) :
    c1of W1 (ix2 k (Cert.Sage.hi j)) = W1 (ix2 j (Cert.Sage.hi k)) := by
  unfold c1of
  refine (concatenate_pair_apply_right (t := S256x512) (s₁ := S256x256) (s₂ := S256x256) (1 : Fin 2) _ _
    concatenates_S256x256_S256x256_S256x512_d1 (ix2 k (Cert.Sage.hi j)) rfl rfl (ix2 k j)
    (fun b hb => by
      match b with
      | ⟨0, _⟩ => rfl
      | ⟨1, _⟩ => exact absurd rfl hb)
    (by show j.val + 256 = 256 + j.val; omega)).trans ?_
  refine (transpose_apply [1, 0] _ transposes_S256x256_S256x256_1_0 (ix2 k j) (ix2 j k) (fun b => by
      match b with
      | ⟨0, _⟩ => rfl
      | ⟨1, _⟩ => rfl)).trans ?_
  exact extractStridedSlice_apply ![0, 256] W1 slices_S256x512_S256x256_0_256 (ix2 j k) (ix2 j (Cert.Sage.hi k)) (fun a => by
      match a with
      | ⟨0, _⟩ => show j.val = 0 + j.val; omega
      | ⟨1, _⟩ => show 256 + k.val = 256 + k.val; rfl)

/-- c2[j, e] = W2[e, j] for a column e of the left half. -/
theorem c2of_lo (W2 : FVec F S128x512 .f32) (j : Fin 256) (e : Fin 128) :
    c2of W2 (ix2 j (⟨e.val, by omega⟩ : Fin 256)) = W2 (ix2 e (Cert.Sage.lo j)) := by
  unfold c2of
  refine (concatenate_pair_apply_left (t := S256x256) (s₁ := S256x128) (s₂ := S256x128) (1 : Fin 2) _ _
    concatenates_S256x128_S256x128_S256x256_d1 (ix2 j (⟨e.val, by omega⟩ : Fin 256)) rfl (ix2 j e) (fun b => by
      match b with
      | ⟨0, _⟩ => rfl
      | ⟨1, _⟩ => rfl)).trans ?_
  refine (transpose_apply [1, 0] _ transposes_S128x256_S256x128_1_0 (ix2 j e) (ix2 e j) (fun b => by
      match b with
      | ⟨0, _⟩ => rfl
      | ⟨1, _⟩ => rfl)).trans ?_
  exact extractStridedSlice_apply ![0, 0] W2 slices_S128x512_S128x256_0_0 (ix2 e j) (ix2 e (Cert.Sage.lo j)) (fun a => by
      match a with
      | ⟨0, _⟩ => show e.val = 0 + e.val; omega
      | ⟨1, _⟩ => show j.val = 0 + j.val; omega)

/-- c2[j, 128 + e] = W2[e, 256 + j]. -/
theorem c2of_hi (W2 : FVec F S128x512 .f32) (j : Fin 256) (e : Fin 128) :
    c2of W2 (ix2 j (⟨128 + e.val, by omega⟩ : Fin 256)) = W2 (ix2 e (Cert.Sage.hi j)) := by
  unfold c2of
  refine (concatenate_pair_apply_right (t := S256x256) (s₁ := S256x128) (s₂ := S256x128) (1 : Fin 2) _ _
    concatenates_S256x128_S256x128_S256x256_d1 (ix2 j (⟨128 + e.val, by omega⟩ : Fin 256)) rfl rfl (ix2 j e)
    (fun b hb => by
      match b with
      | ⟨0, _⟩ => rfl
      | ⟨1, _⟩ => exact absurd rfl hb)
    (by show e.val + 128 = 128 + e.val; omega)).trans ?_
  refine (transpose_apply [1, 0] _ transposes_S128x256_S256x128_1_0 (ix2 j e) (ix2 e j) (fun b => by
      match b with
      | ⟨0, _⟩ => rfl
      | ⟨1, _⟩ => rfl)).trans ?_
  exact extractStridedSlice_apply ![0, 256] W2 slices_S128x512_S128x256_0_256 (ix2 e j) (ix2 e (Cert.Sage.hi j)) (fun a => by
      match a with
      | ⟨0, _⟩ => show e.val = 0 + e.val; omega
      | ⟨1, _⟩ => show 256 + j.val = 256 + j.val; rfl)

end Cert.KernelIdeal.HandValue

end
-- ==== Proof.KernelFun.lean ====
/-
  The same network in the arrangement the kernel computes it, over the kernel's own operands: the features x,
  the adjacency A, and the two REARRANGED weight arrays c1 (256 × 512) and c2 (256 × 256), whose column halves
  are the transposed halves of W1 and W2.  With deg r = (Σ_k A[r,k]) + 1:

    kproj1[i,j] = Σ_k x[i,k] · c1[k,256+j]
    khid[r,j]   = max (Σ_k x[r,k] · c1[k,j] + (Σ_i A[r,i] · kproj1[i,j]) / deg r) 0
    kz[r,j]     = Σ_h khid[r,h] · c2[h,j]          (columns 0..127: the self term; 128..255: the projection)
    kout[r,e]   = max (kz[r,e] + (Σ_i A[r,i] · kz[i,128+e]) / deg r) 0
-/
import proofs.«124770_g29755533426829_cont_9to1_2196_3_alg».proof.Proof.Spec

noncomputable section

namespace Cert.Sage

open Idealize.ShloMosaic Idealize.ShloMosaic.ValueIdx
open scoped BigOperators

/-- Column `e` of the left half of the second rearranged weight array. -/
abbrev lo2 (e : Fin 128) : Fin 256 := ⟨e.val, by omega⟩
/-- Column `e` of its right half. -/
abbrev hi2 (e : Fin 128) : Fin 256 := ⟨128 + e.val, by omega⟩

def kproj1 (x : Mat 10000 256) (c1 : Mat 256 512) (i : Fin 10000) (j : Fin 256) : EReal :=
  ∑ k : Fin 256, x (ix2 i k) * c1 (ix2 k (hi j))

def khid (x : Mat 10000 256) (adj : Mat 10000 10000) (c1 : Mat 256 512) (r : Fin 10000) (j : Fin 256) : EReal :=
  max ((∑ k : Fin 256, x (ix2 r k) * c1 (ix2 k (lo j)))
    + Ideal.div (∑ i : Fin 10000, adj (ix2 r i) * kproj1 x c1 i j) (deg adj r)) 0

def kz (x : Mat 10000 256) (adj : Mat 10000 10000) (c1 : Mat 256 512) (c2 : Mat 256 256) (r : Fin 10000) (j : Fin 256) : EReal :=
  ∑ h : Fin 256, khid x adj c1 r h * c2 (ix2 h j)

def kout (x : Mat 10000 256) (adj : Mat 10000 10000) (c1 : Mat 256 512) (c2 : Mat 256 256) (r : Fin 10000) (e : Fin 128) : EReal :=
  max (kz x adj c1 c2 r (lo2 e)
    + Ideal.div (∑ i : Fin 10000, adj (ix2 r i) * kz x adj c1 c2 i (hi2 e)) (deg adj r)) 0

end Cert.Sage

end
-- ==== Proof.KI.KernelLaw.lean ====
/-
  The kernel's arrangement of the network over the rearranged weights is the specification's network over
  the weights themselves: each entry of a rearranged array is an entry of the original (c1[k, j] = W1[j, k],
  c1[k, 256 + j] = W1[j, 256 + k], c2[j, e] = W2[e, j], c2[j, 128 + e] = W2[e, 256 + j]), so the sums agree
  term by term.
-/
import proofs.«124770_g29755533426829_cont_9to1_2196_3_alg».proof.Proof.KI.HostPrefix
import proofs.«124770_g29755533426829_cont_9to1_2196_3_alg».proof.Proof.KernelFun

noncomputable section

namespace Cert.KernelIdeal.HandValue

open Cert.KernelIdeal Cert.KernelIdeal.Gen
open Idealize.ShloMosaic Idealize.ShloMosaic.ValueIdx
open scoped BigOperators

/-- The first layer's neighbour projection. -/
theorem kproj1_eq (x : Cert.Sage.Mat 10000 256) (W1 : FVec Ideal S256x512 .f32) (i : Fin 10000) (j : Fin 256) :
    Cert.Sage.kproj1 x (c1of W1) i j = Cert.Sage.proj1 x W1 i j := by
  unfold Cert.Sage.kproj1 Cert.Sage.proj1
  exact Finset.sum_congr rfl fun k _ => congrArg (x (ix2 i k) * ·) (c1of_hi W1 k j)

/-- The hidden layer. -/
theorem khid_eq (x : Cert.Sage.Mat 10000 256) (adj : Cert.Sage.Mat 10000 10000) (W1 : FVec Ideal S256x512 .f32)
    (r : Fin 10000) (j : Fin 256) :
    Cert.Sage.khid x adj (c1of W1) r j = Cert.Sage.hid x adj W1 r j := by
  unfold Cert.Sage.khid Cert.Sage.hid
  have h1 : (∑ k : Fin 256, x (ix2 r k) * c1of W1 (ix2 k (Cert.Sage.lo j))) = ∑ k : Fin 256, x (ix2 r k) * W1 (ix2 j (Cert.Sage.lo k)) :=
    Finset.sum_congr rfl fun k _ => congrArg (x (ix2 r k) * ·) (c1of_lo W1 k j)
  have h2 : (∑ i : Fin 10000, adj (ix2 r i) * Cert.Sage.kproj1 x (c1of W1) i j) = ∑ i : Fin 10000, adj (ix2 r i) * Cert.Sage.proj1 x W1 i j :=
    Finset.sum_congr rfl fun i _ => congrArg (adj (ix2 r i) * ·) (kproj1_eq x W1 i j)
  rw [h1, h2]

/-- The second layer's self term is the left half of the kernel's second product. -/
theorem kz_lo (x : Cert.Sage.Mat 10000 256) (adj : Cert.Sage.Mat 10000 10000) (W1 : FVec Ideal S256x512 .f32) (W2 : FVec Ideal S128x512 .f32)
    (r : Fin 10000) (e : Fin 128) :
    Cert.Sage.kz x adj (c1of W1) (c2of W2) r (Cert.Sage.lo2 e) = Cert.Sage.self2 x adj W1 W2 r e := by
  unfold Cert.Sage.kz Cert.Sage.self2
  refine Finset.sum_congr rfl fun h _ => ?_
  rw [khid_eq x adj W1 r h]
  exact congrArg (Cert.Sage.hid x adj W1 r h * ·) (c2of_lo W2 h e)

/-- The second layer's neighbour projection is the right half of the kernel's second product. -/
theorem kz_hi (x : Cert.Sage.Mat 10000 256) (adj : Cert.Sage.Mat 10000 10000) (W1 : FVec Ideal S256x512 .f32) (W2 : FVec Ideal S128x512 .f32)
    (r : Fin 10000) (e : Fin 128) :
    Cert.Sage.kz x adj (c1of W1) (c2of W2) r (Cert.Sage.hi2 e) = Cert.Sage.proj2 x adj W1 W2 r e := by
  unfold Cert.Sage.kz Cert.Sage.proj2
  refine Finset.sum_congr rfl fun h _ => ?_
  rw [khid_eq x adj W1 r h]
  exact congrArg (Cert.Sage.hid x adj W1 r h * ·) (c2of_hi W2 h e)

/-- The kernel's arrangement over the rearranged weights is the specification's output entry. -/
theorem kout_eq_out (x : Cert.Sage.Mat 10000 256) (adj : Cert.Sage.Mat 10000 10000) (W1 : FVec Ideal S256x512 .f32) (W2 : FVec Ideal S128x512 .f32)
    (r : Fin 10000) (e : Fin 128) :
    Cert.Sage.kout x adj (c1of W1) (c2of W2) r e = Cert.Sage.out x adj W1 W2 r e := by
  unfold Cert.Sage.kout Cert.Sage.out
  have hs : (∑ i : Fin 10000, adj (ix2 r i) * Cert.Sage.kz x adj (c1of W1) (c2of W2) i (Cert.Sage.hi2 e))
      = ∑ i : Fin 10000, adj (ix2 r i) * Cert.Sage.proj2 x adj W1 W2 i e :=
    Finset.sum_congr rfl fun i _ => congrArg (adj (ix2 r i) * ·) (kz_hi x adj W1 W2 i e)
  rw [kz_lo x adj W1 W2 r e, hs]

end Cert.KernelIdeal.HandValue

end
-- ==== Proof.KI.Region1Value.lean ====
/- The second layer's body at the ideal values (a float an extended real, every operation the textbook one, a
   change of format the identity), read at ONE index (r, e) of its [400,128] output block: with a the [400,10000]
   block of the adjacency rows, p the whole [10000,128] array of projected features, s the [400,128] block of the self
   term and d the [400,1] block of the degrees,

     payload[r,e] = max (s[r,e] + (Σ_i a[r,i] · p[i,e]) / d[r,0]) 0 ,

   the matrix product into a zero accumulator being the plain sum over the one contracted axis, the [400,1] column
   broadcast along the rows, and a shape cast to the same shape the identity. The same for what the body leaves in the
   output window's buffer (`out1_4`): its one store covers the buffer, and each load reads a whole buffer. -/
import proofs.«124770_g29755533426829_cont_9to1_2196_3_alg».proof.Proof.KI.Region1
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen Cert.KernelIdeal.Hand
open Idealize.ShloMosaic Idealize.ShloMosaic.ValueIdx
open scoped BigOperators

/-! ## The matrix product's operand indices -/

/-- At output index `i` and contraction index `q` the left operand is read at row `i 0` … -/
theorem lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- … and column the contraction coordinate; -/
theorem lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- the right operand at row the contraction coordinate … -/
theorem rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- … and column `i 1`. -/
theorem rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The [400,10000] × [10000,128] product into the zero accumulator, at (r, e): the sum over the contracted axis. -/
theorem matmul_zero_apply (a : FVec Ideal S400x10000 .bf16) (p : FVec Ideal S10000x128 .bf16) (r : Fin 400) (e : Fin 128) :
    matmul dot_S400x10000_S10000x128_S400x128_1_0_0_1_n_n none a p (constant (F := Ideal) S400x128 .f32 0x00000000#32) (ix2 r e)
      = ∑ i : Fin 10000, a (ix2 r i) * p (ix2 i e) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r e) ((contrEquiv1 dot_S400x10000_S10000x128_S400x128_1_0_0_1_n_n 10000 rfl rfl).symm k) = ix2 r k := funext fun ax => Fin.ext (by
    match ax with
    | ⟨0, _⟩ => exact lhs_0 _ _
    | ⟨1, _⟩ => exact (lhs_1 _ _).trans hk)
  have er : dot_S400x10000_S10000x128_S400x128_1_0_0_1_n_n.rhsIdx (ix2 r e) ((contrEquiv1 dot_S400x10000_S10000x128_S400x128_1_0_0_1_n_n 10000 rfl rfl).symm k) = ix2 k e := funext fun ax => Fin.ext (by
    match ax with
    | ⟨0, _⟩ => exact (rhs_0 _ _).trans hk
    | ⟨1, _⟩ => exact rhs_1 _ _)
  rw [el, er]

/-- A [400,1] column broadcast to [400,128] reads, at (r, e), the column at row r. -/
theorem broadcastTo_col_apply (v : (⟨2, ![400, 1]⟩ : Shape).Idx → EReal) (h : (⟨2, ![400, 1]⟩ : Shape).Broadcasts ⟨2, ![400, 128]⟩)
    (r : Fin 400) (e : Fin 128) : broadcastTo ⟨2, ![400, 128]⟩ v h (ix2 r e) = v (ix2 r (0 : Fin 1)) := by
  refine broadcastTo_apply v h (ix2 r e) (ix2 r (0 : Fin 1)) fun ax => ?_
  match ax with
  | ⟨0, _⟩ =>
    show r.val = if (400 : Nat) = 1 then 0 else r.val
    rw [if_neg (by decide)]
  | ⟨1, _⟩ =>
    show (0 : Nat) = if (1 : Nat) = 1 then 0 else e.val
    rw [if_pos rfl]

/-! ## The payload at an index -/

/-- THE PAYLOAD AT (r, e): the self term plus the aggregated projected features over the degree, cut at zero. -/
theorem k1_pay1_apply (a : Vec Ideal S400x10000 .f32) (p : Vec Ideal S10000x128 .bf16) (s : Vec Ideal S400x128 .f32) (d : Vec Ideal S400x1 .f32) (r : Fin 400) (e : Fin 128) :
    k1_pay1 (F := Ideal) a p s d (ix2 r e) = max (s (ix2 r e) + Ideal.div (∑ i : Fin 10000, a (ix2 r i) * p (ix2 i e)) (d (ix2 r (0 : Fin 1)))) 0 := by
  unfold k1_pay1
  rw [maximumf_apply, addf_apply, divf_apply, broadcast_apply]
  rw [shapeCast_self s, shapeCast_self p, shapeCast_self d]
  rw [broadcastTo_col_apply, matmul_zero_apply]
  show max (s (ix2 r e) + Ideal.div (∑ i : Fin 10000, a (ix2 r i) * p (ix2 i e)) (d (ix2 r (0 : Fin 1)))) (Ideal.ofBits .f32 0x00000000#32) = _
  rw [Ideal.ofBits_zero_f32]

/-! ## What the body leaves in the output window's buffer, at an index -/

/-- The offsets of every access of the body are zero. -/
theorem off_zero : (![0, 0] : Fin 2 → Nat) = fun _ => 0 := funext fun a => by fin_cases a <;> rfl

/-- The output window's buffer after the body IS the payload of the four input buffers' contents: the one store
    covers the buffer and each load reads a whole buffer. -/
theorem out1_4_eq_pay (x0 : Vec Ideal S400x10000 .f32) (x1 : Vec Ideal S10000x128 .bf16) (x2 : Vec Ideal S400x128 .f32) (x3 : Vec Ideal S400x1 .f32) :
    out1_4 (F := Ideal) x0 x1 x2 x3 = k1_pay1 (F := Ideal) x0 x1 x2 x3 := by
  unfold out1_4
  rw [View.canon_unit_zero off_zero]
  simp only [View.ld_unit_zero (S := S400x10000) off_zero, View.ld_unit_zero (S := S10000x128) off_zero,
    View.ld_unit_zero (S := S400x128) off_zero, View.ld_unit_zero (S := S400x1) off_zero]

/-- So at (r, e) it is the closed form of the payload. -/
theorem out1_4_apply (x0 : Vec Ideal S400x10000 .f32) (x1 : Vec Ideal S10000x128 .bf16) (x2 : Vec Ideal S400x128 .f32) (x3 : Vec Ideal S400x1 .f32) (r : Fin 400) (e : Fin 128) :
    out1_4 (F := Ideal) x0 x1 x2 x3 (ix2 r e) = max (x2 (ix2 r e) + Ideal.div (∑ i : Fin 10000, x0 (ix2 r i) * x1 (ix2 i e)) (x3 (ix2 r (0 : Fin 1)))) 0 := by
  rw [out1_4_eq_pay]
  exact k1_pay1_apply x0 x1 x2 x3 r e

end Cert.KernelIdeal.HandValue

end
-- ==== Proof.KI.Final1.lean ====
/- REGION 1's OUTPUT ARRAY after its 25 grid points, at the ideal values: ONE function of the region's four operand
   arrays as the region finds them (`V`). With A the [10000,10000] adjacency, P the [10000,128] projected features,
   S the [10000,128] self term and D the [10000,1] degrees,

     G1 A P S D [R,e] = max (S[R,e] + (Σ_i A[R,i] · P[i,e]) / D[R,0]) 0 .

   Point t's output block holds rows 400·t … 400·t + 399: the adjacency block read there holds the same rows and all
   columns, the projected features are one block (the whole array), the self-term and degree blocks hold the same
   rows; so what point t writes back is block t of G1 (`flushed1_4_eq`). Every point writes back and row R lies in
   the block of point R / 400, so the blocks cover the array and it ends holding G1 (`final1_4`). -/
import proofs.«124770_g29755533426829_cont_9to1_2196_3_alg».proof.Proof.KI.Region1Value
import proofs.«124770_g29755533426829_cont_9to1_2196_3_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The second layer as one function of its four operand arrays, entry by entry. -/
def G1 (adj : Cert.Sage.Mat 10000 10000) (p2 : Cert.Sage.Mat 10000 128) (s2 : Cert.Sage.Mat 10000 128) (dg : Cert.Sage.Mat 10000 1) : Cert.Sage.Mat 10000 128 :=
  fun j => max (s2 j + Ideal.div (∑ i : Fin 10000, adj (ix2 ⟨(j 0).val, idx2_lt0 j⟩ i) * p2 (ix2 i ⟨(j 1).val, idx2_lt1 j⟩)) (dg (ix2 ⟨(j 0).val, idx2_lt0 j⟩ (0 : Fin 1)))) 0

/-- `G1` at an index whose coordinates are `R` and `e`. -/
theorem G1_at (adj : Cert.Sage.Mat 10000 10000) (p2 : Cert.Sage.Mat 10000 128) (s2 : Cert.Sage.Mat 10000 128) (dg : Cert.Sage.Mat 10000 1)
    (j : (⟨2, ![10000, 128]⟩ : Shape).Idx) (R : Fin 10000) (e : Fin 128) (h0 : (j 0).val = R.val) (h1 : (j 1).val = e.val) :
    G1 adj p2 s2 dg j = max (s2 j + Ideal.div (∑ i : Fin 10000, adj (ix2 R i) * p2 (ix2 i e)) (dg (ix2 R (0 : Fin 1)))) 0 := by
  have hR : (⟨(j 0).val, idx2_lt0 j⟩ : Fin 10000) = R := Fin.ext h0
  have he : (⟨(j 1).val, idx2_lt1 j⟩ : Fin 128) = e := Fin.ext h1
  unfold G1
  rw [hR, he]

/-! ## The index maps, decided over the grid -/

/-- At point `t`: the adjacency, self-term, degree and output windows are at block row `t`, block column 0; the
    projected features' one block is at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- A point's number is below 25. -/
theorem point_lt (t : Fin cfg1.N) : t.val < 25 :=
  Nat.lt_of_lt_of_eq t.isLt (show cfg1.N = 25 from N_1)

variable (V : (c : Dev nD) → (b : Ref sig .tc) → Buf (Elt Ideal) ((c : Thread nD τ).loc b))

/-! ## Each input block read where the output's block says -/

/-- The adjacency block at point `t`, at (r, i): the array at (400·t + r, i). -/
theorem iblk1_0_at (c : Dev nD) (t : Fin cfg1.N) (x : S400x10000.Idx) (k : S10000x10000.Idx)
    (h0 : (k 0).val = 400 * t.val + (x 0).val) (h1 : (k 1).val = (x 1).val) :
    iblk1 V c 0 t x = V c main_arg1 k := by
  obtain ⟨e00, e01, -⟩ := idx_facts1 t
  show V c main_arg1 (((cfg1.win 0).blk t).view.emb x) = V c main_arg1 k
  refine congrArg _ (funext fun a => Fin.ext ?_)
  match a with
  | ⟨0, _⟩ => show win1_0.index t (0 : Fin 2) * 400 + 1 * (x 0).val = (k 0).val; omega
  | ⟨1, _⟩ => show win1_0.index t (1 : Fin 2) * 10000 + 1 * (x 1).val = (k 1).val; omega

/-- The projected features' block at any point is the whole array. -/
theorem iblk1_1_at (c : Dev nD) (t : Fin cfg1.N) (x : S10000x128.Idx) (k : S10000x128.Idx)
    (h0 : (k 0).val = (x 0).val) (h1 : (k 1).val = (x 1).val) :
    iblk1 V c 1 t x = V c main_v10_1 k := by
  obtain ⟨-, -, e10, e11, -⟩ := idx_facts1 t
  show V c main_v10_1 (((cfg1.win 1).blk t).view.emb x) = V c main_v10_1 k
  refine congrArg _ (funext fun a => Fin.ext ?_)
  match a with
  | ⟨0, _⟩ => show win1_1.index t (0 : Fin 2) * 10000 + 1 * (x 0).val = (k 0).val; omega
  | ⟨1, _⟩ => show win1_1.index t (1 : Fin 2) * 128 + 1 * (x 1).val = (k 1).val; omega

/-- The self-term block at point `t`, at (r, e): the array at (400·t + r, e). -/
theorem iblk1_2_at (c : Dev nD) (t : Fin cfg1.N) (x : S400x128.Idx) (k : S10000x128.Idx)
    (h0 : (k 0).val = 400 * t.val + (x 0).val) (h1 : (k 1).val = (x 1).val) :
    iblk1 V c 2 t x = V c main_v10_0 k := by
  obtain ⟨-, -, -, -, e20, e21, -⟩ := idx_facts1 t
  show V c main_v10_0 (((cfg1.win 2).blk t).view.emb x) = V c main_v10_0 k
  refine congrArg _ (funext fun a => Fin.ext ?_)
  match a with
  | ⟨0, _⟩ => show win1_2.index t (0 : Fin 2) * 400 + 1 * (x 0).val = (k 0).val; omega
  | ⟨1, _⟩ => show win1_2.index t (1 : Fin 2) * 128 + 1 * (x 1).val = (k 1).val; omega

/-- The degree block at point `t`, at (r, 0): the array at (400·t + r, 0). -/
theorem iblk1_3_at (c : Dev nD) (t : Fin cfg1.N) (x : S400x1.Idx) (k : S10000x1.Idx)
    (h0 : (k 0).val = 400 * t.val + (x 0).val) (h1 : (k 1).val = (x 1).val) :
    iblk1 V c 3 t x = V c main_v10_2 k := by
  obtain ⟨-, -, -, -, -, -, e30, e31, -⟩ := idx_facts1 t
  show V c main_v10_2 (((cfg1.win 3).blk t).view.emb x) = V c main_v10_2 k
  refine congrArg _ (funext fun a => Fin.ext ?_)
  match a with
  | ⟨0, _⟩ => show win1_3.index t (0 : Fin 2) * 400 + 1 * (x 0).val = (k 0).val; omega
  | ⟨1, _⟩ => show win1_3.index t (1 : Fin 2) * 1 + 1 * (x 1).val = (k 1).val; omega

/-! ## What a point writes back -/

/-- Element `y` of what the body leaves at point `t` is `G1` of the operand arrays at `y`'s place in the array. -/
theorem elem1_4 (c : Dev nD) (t : Fin cfg1.N) (y : S400x128.Idx) :
    out1_4 (F := Ideal) (iblk1 V c 0 t) (iblk1 V c 1 t) (iblk1 V c 2 t) (iblk1 V c 3 t) y
      = G1 (V c main_arg1) (V c main_v10_1) (V c main_v10_0) (V c main_v10_2) (((cfg1.win 4).blk t).view.emb y) := by
  obtain ⟨r, e, rfl⟩ : ∃ (r : Fin 400) (e : Fin 128), y = ix2 r e := ⟨y 0, y 1, eq_ix2 y⟩
  obtain ⟨-, -, -, -, -, -, -, -, e40, e41⟩ := idx_facts1 t
  have ht := point_lt t
  have hr : r.val < 400 := r.isLt
  obtain ⟨R, hR⟩ : ∃ R : Fin 10000, R.val = 400 * t.val + r.val := ⟨⟨400 * t.val + r.val, by omega⟩, rfl⟩
  have p0 : ((((cfg1.win 4).blk t).view.emb (ix2 r e)) 0).val = R.val := by
    show win1_4.index t (0 : Fin 2) * 400 + 1 * r.val = R.val; omega
  have p1 : ((((cfg1.win 4).blk t).view.emb (ix2 r e)) 1).val = e.val := by
    show win1_4.index t (1 : Fin 2) * 128 + 1 * e.val = e.val; omega
  refine (out1_4_apply _ _ _ _ r e).trans ?_
  refine Eq.trans ?_ (G1_at _ _ _ _ _ R e p0 p1).symm
  rw [iblk1_2_at V c t (ix2 r e) (((cfg1.win 4).blk t).view.emb (ix2 r e)) (by rw [p0, hR]) p1,
    iblk1_3_at V c t (ix2 r (0 : Fin 1)) (ix2 R (0 : Fin 1)) hR rfl]
  refine congrArg (fun z => max (_ + Ideal.div z _) 0) (Finset.sum_congr rfl fun i _ => ?_)
  rw [iblk1_0_at V c t (ix2 r i) (ix2 R i) hR rfl, iblk1_1_at V c t (ix2 i e) (ix2 i e) rfl rfl]

/-- WHAT POINT `t` WRITES BACK is block `t` of `G1` of the operand arrays as the region finds them. -/
theorem flushed1_4_eq (c : Dev nD) (t : Fin cfg1.N) :
    (dat1 (F := Ideal) V c).flushed 4 t
      = ((cfg1.win 4).blk t).view.read (Elt Ideal) (G1 (V c main_arg1) (V c main_v10_1) (V c main_v10_0) (V c main_v10_2)) := by
  show (cfg1.win 4).cut (grid1.coords t) ((dat1 V c).after 4 t) = _
  rw [after1_4]
  funext y
  exact elem1_4 V c t y

/-! ## The blocks cover the array -/

/-- An index of the array is in point `t`'s block iff each coordinate is in the block's range on its axis. -/
theorem mem_blk1_4 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v11).slice (win1_4.rect t)).set ↔ _
  rw [View.set_slice_whole, Rect.mem_set_unit]
  exact Iff.rfl

/-- Row R is in the block of point R / 400, and every point writes back. -/
theorem cover1_4_arr (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, htv⟩ : ∃ t : Fin cfg1.N, t.val = (i 0).val / 400 :=
    ⟨⟨(i 0).val / 400, by rw [show cfg1.N = 25 from N_1]; omega⟩, rfl⟩
  obtain ⟨-, -, -, -, -, -, -, -, e40, e41⟩ := idx_facts1 t
  refine ⟨t, flush1_4 t, ?_⟩
  rw [mem_blk1_4]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-! ## The array after the region -/

/-- THE OUTPUT ARRAY after all 25 points: `G1` of the four operand arrays as the region finds them. -/
theorem final1_4 (c : Dev nD) :
    (dat1 (F := Ideal) V c).arrAt 4 cfg1.N = G1 (V c main_arg1) (V c main_v10_1) (V c main_v10_0) (V c main_v10_2) :=
  (dat1 (F := Ideal) V c).arrAt_eq_of_cover 4 (G1 (V c main_arg1) (V c main_v10_1) (V c main_v10_0) (V c main_v10_2))
    (fun t _ => flushed1_4_eq V c t) (fun i => cover1_4_arr i)

end Cert.KernelIdeal.HandValue

end
-- ==== Proof.KI.KernelOut.lean ====
/-
  The kernel's result array is the specification's output array.

  The second call leaves in the result array the second layer G1 of the four arrays it reads: the adjacency,
  and the three arrays the first call wrote — the projection kz[·, 128..255], the self term kz[·, 0..127] and
  the divisor column deg — each a function of the features, the adjacency and the two rearranged weight arrays
  as the first call found them.  The host operations before the first call leave the features and the adjacency
  as launched and put c1 of W1 and c2 of W2 in the two rearranged arrays.  Substituting, entry (r, e) of the
  result is max (kz[r, e] + (Σ_i A[r,i] · kz[i, 128 + e]) / deg r) 0 over c1 of W1 and c2 of W2, which is the
  specification's out[r, e] over W1 and W2.
-/
import proofs.«124770_g29755533426829_cont_9to1_2196_3_alg».proof.Proof.KI.Run
import proofs.«124770_g29755533426829_cont_9to1_2196_3_alg».proof.Proof.KI.HostPrefix
import proofs.«124770_g29755533426829_cont_9to1_2196_3_alg».proof.Proof.KI.KernelLaw
import proofs.«124770_g29755533426829_cont_9to1_2196_3_alg».proof.Proof.KI.Final1

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open scoped BigOperators

/-- The second layer of the kernel's own three intermediate arrays is the specification's output array. -/
theorem G1_of_kz (x : Cert.Sage.Mat 10000 256) (adj : Cert.Sage.Mat 10000 10000) (W1 : FVec Ideal S256x512 .f32)
    (W2 : FVec Ideal S128x512 .f32) :
    G1 adj
      (fun j : S10000x128.Idx => Cert.Sage.kz x adj (c1of W1) (c2of W2) ⟨(j 0).val, idx2_lt0 j⟩ (Cert.Sage.hi2 ⟨(j 1).val, idx2_lt1 j⟩))
      (fun j : S10000x128.Idx => Cert.Sage.kz x adj (c1of W1) (c2of W2) ⟨(j 0).val, idx2_lt0 j⟩ (Cert.Sage.lo2 ⟨(j 1).val, idx2_lt1 j⟩))
      (fun j : S10000x1.Idx => Cert.Sage.deg adj ⟨(j 0).val, idx2_lt0 j⟩)
      = Cert.Sage.outArr x adj W1 W2 := by
  funext j
  obtain ⟨r, e, rfl⟩ : ∃ (r : Fin 10000) (e : Fin 128), j = ix2 r e := ⟨j 0, j 1, eq_ix2 j⟩
  rw [G1_at _ _ _ _ (ix2 r e) r e rfl rfl]
  exact kout_eq_out x adj W1 W2 r e

/-- The result array at the end of the program, given what each region leaves in each of its output arrays. -/
theorem kernel_out_of
    (h4 : ∀ (V : (c : Dev nD) → (b : Ref sig .tc) → Buf (Elt Ideal) ((c : Thread nD τ).loc b)) (c : Dev nD),
      (dat0 (F := Ideal) V c).arrAt 4 cfg0.N = fun j : S10000x128.Idx =>
        Cert.Sage.kz (V c main_arg0) (V c main_arg1) (V c main_v4) (V c main_v9) ⟨(j 0).val, idx2_lt0 j⟩ (Cert.Sage.lo2 ⟨(j 1).val, idx2_lt1 j⟩))
    (h5 : ∀ (V : (c : Dev nD) → (b : Ref sig .tc) → Buf (Elt Ideal) ((c : Thread nD τ).loc b)) (c : Dev nD),
      (dat0 (F := Ideal) V c).arrAt 5 cfg0.N = fun j : S10000x128.Idx =>
        Cert.Sage.kz (V c main_arg0) (V c main_arg1) (V c main_v4) (V c main_v9) ⟨(j 0).val, idx2_lt0 j⟩ (Cert.Sage.hi2 ⟨(j 1).val, idx2_lt1 j⟩))
    (h6 : ∀ (V : (c : Dev nD) → (b : Ref sig .tc) → Buf (Elt Ideal) ((c : Thread nD τ).loc b)) (c : Dev nD),
      (dat0 (F := Ideal) V c).arrAt 6 cfg0.N = fun j : S10000x1.Idx => Cert.Sage.deg (V c main_arg1) ⟨(j 0).val, idx2_lt0 j⟩)
    (h1 : ∀ (V : (c : Dev nD) → (b : Ref sig .tc) → Buf (Elt Ideal) ((c : Thread nD τ).loc b)) (c : Dev nD),
      (dat1 (F := Ideal) V c).arrAt 4 cfg1.N = G1 (V c main_arg1) (V c main_v10_1) (V c main_v10_0) (V c main_v10_2))
    (m : (ℓ : Loc nD τ sig) → Buf (Elt Ideal) ℓ) (ρ : Dev nD → PrngReg) (c : Dev nD) :
    W3 (F := Ideal) m ρ c (Proc.devRef .tc main_v11)
      = Cert.Sage.outArr (m ((c : Thread nD τ).loc main_arg0)) (m ((c : Thread nD τ).loc main_arg1))
          (m ((c : Thread nD τ).loc main_arg2)) (m ((c : Thread nD τ).loc main_arg3)) := by
  -- the arrays the first region finds
  have hx : V1 (F := Ideal) m ρ c main_arg0 = m ((c : Thread nD τ).loc main_arg0) := after_main_arg0 m c
  have hadj : V1 (F := Ideal) m ρ c main_arg1 = m ((c : Thread nD τ).loc main_arg1) := after_main_arg1 m c
  have hc1 : V1 (F := Ideal) m ρ c main_v4 = c1of (F := Ideal) (m ((c : Thread nD τ).loc main_arg2)) := after_main_v4 m c
  have hc2 : V1 (F := Ideal) m ρ c main_v9 = c2of (F := Ideal) (m ((c : Thread nD τ).loc main_arg3)) := after_main_v9 m c
  -- the arrays the second region finds
  have hA : V2 (F := Ideal) m ρ c main_arg1 = m ((c : Thread nD τ).loc main_arg1) :=
    ((W2_arr m ρ c 0).trans (((dat0 (V1 m ρ) c).arrAt_in 0 rfl _).trans (A_eq0 (V1 m ρ) c 0))).trans hadj
  have hS := (W2_arr (F := Ideal) m ρ c 4).trans (h4 (V1 m ρ) c)
  have hP := (W2_arr (F := Ideal) m ρ c 5).trans (h5 (V1 m ρ) c)
  have hD := (W2_arr (F := Ideal) m ρ c 6).trans (h6 (V1 m ρ) c)
  rw [hx, hadj, hc1, hc2] at hS hP
  rw [hadj] at hD
  refine ((W3_arr m ρ c 4).trans (h1 (V2 m ρ) c)).trans ?_
  rw [hA, show V2 (F := Ideal) m ρ c main_v10_1 = _ from hP, show V2 (F := Ideal) m ρ c main_v10_0 = _ from hS,
    show V2 (F := Ideal) m ρ c main_v10_2 = _ from hD]
  exact G1_of_kz _ _ _ _

/-- The same, the second region's output array being the second layer of the four arrays that region reads. -/
theorem kernel_out_of'
    (h4 : ∀ (V : (c : Dev nD) → (b : Ref sig .tc) → Buf (Elt Ideal) ((c : Thread nD τ).loc b)) (c : Dev nD),
      (dat0 (F := Ideal) V c).arrAt 4 cfg0.N = fun j : S10000x128.Idx =>
        Cert.Sage.kz (V c main_arg0) (V c main_arg1) (V c main_v4) (V c main_v9) ⟨(j 0).val, idx2_lt0 j⟩ (Cert.Sage.lo2 ⟨(j 1).val, idx2_lt1 j⟩))
    (h5 : ∀ (V : (c : Dev nD) → (b : Ref sig .tc) → Buf (Elt Ideal) ((c : Thread nD τ).loc b)) (c : Dev nD),
      (dat0 (F := Ideal) V c).arrAt 5 cfg0.N = fun j : S10000x128.Idx =>
        Cert.Sage.kz (V c main_arg0) (V c main_arg1) (V c main_v4) (V c main_v9) ⟨(j 0).val, idx2_lt0 j⟩ (Cert.Sage.hi2 ⟨(j 1).val, idx2_lt1 j⟩))
    (h6 : ∀ (V : (c : Dev nD) → (b : Ref sig .tc) → Buf (Elt Ideal) ((c : Thread nD τ).loc b)) (c : Dev nD),
      (dat0 (F := Ideal) V c).arrAt 6 cfg0.N = fun j : S10000x1.Idx => Cert.Sage.deg (V c main_arg1) ⟨(j 0).val, idx2_lt0 j⟩)
    (m : (ℓ : Loc nD τ sig) → Buf (Elt Ideal) ℓ) (ρ : Dev nD → PrngReg) (c : Dev nD) :
    W3 (F := Ideal) m ρ c (Proc.devRef .tc main_v11)
      = Cert.Sage.outArr (m ((c : Thread nD τ).loc main_arg0)) (m ((c : Thread nD τ).loc main_arg1))
          (m ((c : Thread nD τ).loc main_arg2)) (m ((c : Thread nD τ).loc main_arg3)) :=
  kernel_out_of h4 h5 h6 (fun V c => final1_4 V c) m ρ c

end Cert.KernelIdeal.HandValue

end
-- ==== Proof.RefAlgebra.lean ====
/-
  The algebra behind the two arrangements of a neighbourhood-averaging layer, on the extended reals.

  An extended real is called real here when it is the image of a real number.  Products, finite sums, the
  maximum with zero and the quotient by a nonzero real of real numbers are real.  For real entries and a nonzero
  real divisor d,

      Σ_k ((Σ_i a_i · f_{i,k}) / d) · w_k  =  (Σ_i a_i · (Σ_k f_{i,k} · w_k)) / d :

  both sides are (1/d) · Σ_i Σ_k a_i · f_{i,k} · w_k, by distributivity and the exchange of the two finite sums.
  A sum over the 512 columns of a weight matrix is the sum over its left half plus the sum over its right half.
-/
import proofs.«124770_g29755533426829_cont_9to1_2196_3_alg».proof.Proof.Spec

noncomputable section

namespace Cert.Sage.Ref

open Idealize.ShloMosaic
open scoped BigOperators

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- The maximum of a real number and zero is a real number. -/
theorem IsReal.max_zero {x : EReal} (hx : IsReal x) : IsReal (max x 0) := by
  obtain ⟨a, rfl⟩ := hx
  exact ⟨max a 0, (EReal.coe_strictMono.monotone.map_max (a := a) (b := 0)).symm⟩

/-- The quotient of a real number by a nonzero real number is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a * (1 / b), by rw [Ideal.div_coe hb, EReal.coe_mul]⟩

/-- A sum over the 512 columns is the sum over the left half plus the sum over the right half. -/
theorem sum_halves {M : Type*} [AddCommMonoid M] (g : Fin 512 → M) :
    ∑ k : Fin 512, g k = (∑ k : Fin 256, g (lo k)) + ∑ k : Fin 256, g (hi k) :=
  Fin.sum_univ_add (a := 256) (b := 256) g

/-- The word `0x3F800000` is the number one. -/
theorem ofBits_one_f32 : Ideal.ofBits .f32 0x3F800000#32 = 1 := by
  simp [Ideal.ofBits, Ideal.ieee]
  rw [← EReal.coe_mul, ← EReal.coe_one, EReal.coe_eq_coe_iff]; norm_num

/-- Averaging then projecting is projecting then averaging, over the reals:
    Σ_k ((Σ_i a_i f_{i,k}) / d) w_k = (Σ_i a_i (Σ_k f_{i,k} w_k)) / d for d ≠ 0. -/
theorem avg_proj_real {ι κ : Type*} [Fintype ι] [Fintype κ] (a : ι → ℝ) (f : ι → κ → ℝ) (w : κ → ℝ) {d : ℝ}
    (hd : d ≠ 0) :
    ∑ k, Ideal.div (∑ i, (a i : EReal) * (f i k : EReal)) (d : EReal) * (w k : EReal)
      = Ideal.div (∑ i, (a i : EReal) * ∑ k, (f i k : EReal) * (w k : EReal)) (d : EReal) := by
  simp only [Ideal.div_coe hd, ← EReal.coe_mul, ← coe_sum]
  refine congrArg _ ?_
  simp only [Finset.sum_mul, Finset.mul_sum]
  rw [Finset.sum_comm]
  exact Finset.sum_congr rfl fun i _ => Finset.sum_congr rfl fun k _ => by ring

/-- The same law for extended reals that are real numbers, the divisor nonzero. -/
theorem avg_proj {ι κ : Type*} [Fintype ι] [Fintype κ] (a : ι → EReal) (f : ι → κ → EReal) (w : κ → EReal) (d : EReal)
    (ha : ∀ i, IsReal (a i)) (hf : ∀ i k, IsReal (f i k)) (hw : ∀ k, IsReal (w k)) (hd : IsReal d) (hd0 : d ≠ 0) :
    ∑ k, Ideal.div (∑ i, a i * f i k) d * w k = Ideal.div (∑ i, a i * ∑ k, f i k * w k) d := by
  choose ar har using ha
  choose fr hfr using hf
  choose wr hwr using hw
  obtain ⟨dr, rfl⟩ := hd
  have hdr : dr ≠ 0 := fun h => hd0 (by rw [h]; rfl)
  simp only [har, hfr, hwr]
  exact avg_proj_real ar fr wr hdr

end Cert.Sage.Ref

end
-- ==== Proof.RefLayer1.lean ====
/-
  The reference's first layer, read entry by entry.

  The reference computes, for node r, the divisor deg r = (Σ_k A[r,k]) + 1, the neighbourhood average
  n[r,k] = (Σ_i A[r,i] · x[i,k]) / deg r, lays x[r,·] and n[r,·] side by side as one row of 512 numbers, and
  contracts that row with row j of W1.  The contraction over the 512 columns splits into the left half (the
  node's own features against W1[j,0..255]) and the right half (the average against W1[j,256..511]); for real
  entries and deg r ≠ 0 the right half is (Σ_i A[r,i] · proj1[i,j]) / deg r, so the entry is hid[r,j].
-/
import proofs.«124770_g29755533426829_cont_9to1_2196_3_alg».proof.Proof.Gen.ReferenceIdeal.Read
import proofs.«124770_g29755533426829_cont_9to1_2196_3_alg».proof.Proof.Spec
import proofs.«124770_g29755533426829_cont_9to1_2196_3_alg».proof.Proof.RefAlgebra

noncomputable section

namespace Cert.Sage.Ref

open Cert.ReferenceIdeal Cert.ReferenceIdeal.Gen Cert.ReferenceIdeal.Read Idealize.ShloMosaic Idealize.ShloMosaic.ValueIdx
open scoped BigOperators

variable (x : FVec Ideal S10000x256 .f32) (adj : FVec Ideal S10000x10000 .f32) (W1 : FVec Ideal S256x512 .f32)

/-- The divisor broadcast along row `r` is the row sum of the adjacency plus one. -/
theorem v5_read (r : Fin 10000) (k : Fin 256) : val_main_v5 (F := Ideal) adj (ix2 r k) = deg adj r := by
  rw [val_main_v5_apply, val_main_v3_apply, val_main_v1_apply, val_main_v0_apply, val_main_v2_apply,
    val_main_cst_0_apply, val_main_cst_apply]
  simp only [Ideal.addf_def, Ideal.ofBits_def, Ideal.ofBits_zero_f32, ofBits_one_f32, zero_add]
  unfold deg
  refine congrArg (· + 1) (Finset.sum_congr rfl fun i _ => congrArg adj ?_)
  funext a
  apply Fin.ext
  match a with
  | ⟨0, _⟩ => show r.val * 1 + 0 = r.val; omega
  | ⟨1, _⟩ => rfl

/-- The neighbourhood average of feature `k` at node `r`. -/
theorem v6_read (r : Fin 10000) (k : Fin 256) :
    val_main_v6 (F := Ideal) x adj (ix2 r k)
      = Ideal.div (∑ i : Fin 10000, adj (ix2 r i) * x (ix2 i k)) (deg adj r) := by
  rw [val_main_v6_apply, val_main_v4_apply, v5_read, Ideal.hostDivf_def]
  refine congrArg (Ideal.div · _) (Finset.sum_congr rfl fun i _ => ?_)
  exact congrArg₂ (· * ·)
    (congrArg adj (funext fun a => match a with | ⟨0, _⟩ => rfl | ⟨1, _⟩ => rfl))
    (congrArg x (funext fun a => match a with | ⟨0, _⟩ => rfl | ⟨1, _⟩ => rfl))

/-- The left half of the joined row is the node's own features. -/
theorem v7_lo (r : Fin 10000) (k : Fin 256) : val_main_v7 (F := Ideal) x adj (ix2 r (lo k)) = x (ix2 r k) := by
  unfold val_main_v7
  exact concatenate_pair_apply_left (s₁ := S10000x256) (s₂ := S10000x256) 1 _ _ _ (ix2 r (lo k)) rfl (ix2 r k)
    (fun b => match b with | ⟨0, _⟩ => rfl | ⟨1, _⟩ => rfl)

/-- The right half of the joined row is the neighbourhood average. -/
theorem v7_hi (r : Fin 10000) (k : Fin 256) :
    val_main_v7 (F := Ideal) x adj (ix2 r (hi k)) = val_main_v6 (F := Ideal) x adj (ix2 r k) := by
  unfold val_main_v7
  exact concatenate_pair_apply_right (s₁ := S10000x256) (s₂ := S10000x256) 1 _ _ _ (ix2 r (hi k)) rfl rfl (ix2 r k)
    (fun b => match b with | ⟨0, _⟩ => fun _ => rfl | ⟨1, _⟩ => fun h => absurd rfl h)
    (by show k.val + 256 = 256 + k.val; omega)

/-- The first layer before the maximum: the contraction over 512 columns, split in its two halves. -/
theorem v9_read (r : Fin 10000) (j : Fin 256) :
    val_main_v9 (F := Ideal) x adj W1 (ix2 r j)
      = (∑ k : Fin 256, x (ix2 r k) * W1 (ix2 j (lo k)))
        + ∑ k : Fin 256, Ideal.div (∑ i : Fin 10000, adj (ix2 r i) * x (ix2 i k)) (deg adj r) * W1 (ix2 j (hi k)) := by
  rw [val_main_v9_apply, sum_halves]
  refine congrArg₂ (· + ·) (Finset.sum_congr rfl fun k _ => ?_) (Finset.sum_congr rfl fun k _ => ?_)
  · have e1 : lidx_main_v9 (ix2 r j) (lo k) = ix2 r (lo k) :=
      funext fun a => match a with | ⟨0, _⟩ => rfl | ⟨1, _⟩ => rfl
    have e2 : idx_main_v8 (ridx_main_v9 (ix2 r j) (lo k)) = ix2 j (lo k) :=
      funext fun a => match a with | ⟨0, _⟩ => rfl | ⟨1, _⟩ => rfl
    rw [val_main_v8_apply, e1, e2, v7_lo]
  · have e1 : lidx_main_v9 (ix2 r j) (hi k) = ix2 r (hi k) :=
      funext fun a => match a with | ⟨0, _⟩ => rfl | ⟨1, _⟩ => rfl
    have e2 : idx_main_v8 (ridx_main_v9 (ix2 r j) (hi k)) = ix2 j (hi k) :=
      funext fun a => match a with | ⟨0, _⟩ => rfl | ⟨1, _⟩ => rfl
    rw [val_main_v8_apply, e1, e2, v7_hi, v6_read]

/-- A node's degree plus one is a real number when the adjacency's entries are. -/
theorem deg_real (hadj : ∀ i, IsReal (adj i)) (r : Fin 10000) : IsReal (deg adj r) :=
  (isReal_sum _ _ fun k => hadj (ix2 r k)).add isReal_one

/-- The reference's hidden layer is the specification's, entries real and no divisor zero. -/
theorem v10_read (hx : ∀ i, IsReal (x i)) (hadj : ∀ i, IsReal (adj i)) (hW1 : ∀ i, IsReal (W1 i))
    (hdeg : ∀ r : Fin 10000, deg adj r ≠ 0) (r : Fin 10000) (j : Fin 256) :
    val_main_v10 (F := Ideal) x adj W1 (ix2 r j) = hid x adj W1 r j := by
  rw [val_main_v10_apply, val_main_call0_v0_apply, val_main_call0_cst_apply, v9_read]
  simp only [Ideal.maximumf_def, Ideal.ofBits_def, Ideal.ofBits_zero_f32]
  unfold hid proj1
  rw [avg_proj (fun i => adj (ix2 r i)) (fun i k => x (ix2 i k)) (fun k => W1 (ix2 j (hi k))) (deg adj r)
    (fun i => hadj _) (fun i k => hx _) (fun k => hW1 _) (deg_real adj hadj r) (hdeg r)]

/-- The hidden layer's entries are real numbers. -/
theorem hid_real (hx : ∀ i, IsReal (x i)) (hadj : ∀ i, IsReal (adj i)) (hW1 : ∀ i, IsReal (W1 i))
    (hdeg : ∀ r : Fin 10000, deg adj r ≠ 0) (r : Fin 10000) (j : Fin 256) : IsReal (hid x adj W1 r j) := by
  unfold hid proj1
  exact (IsReal.add (isReal_sum _ _ fun k => (hx _).mul (hW1 _))
    (IsReal.div (isReal_sum _ _ fun i => (hadj _).mul (isReal_sum _ _ fun k => (hx _).mul (hW1 _)))
      (deg_real adj hadj r) (hdeg r))).max_zero

end Cert.Sage.Ref

end
-- ==== Proof.RefLaw.lean ====
/-
  The reference's value is the specification's output array.

  The second layer repeats the first with the hidden layer in place of the features: the divisor is again
  deg r, the neighbourhood average of the hidden layer is (Σ_i A[r,i] · hid[i,j]) / deg r, the row of 512 numbers
  is hid[r,·] beside that average, and its contraction with row e of W2 splits into the self term self2[r,e]
  and, for real entries and deg r ≠ 0, the quotient (Σ_i A[r,i] · proj2[i,e]) / deg r.  The maximum with zero
  of their sum is out[r,e].
-/
import proofs.«124770_g29755533426829_cont_9to1_2196_3_alg».proof.Proof.Gen.ReferenceIdeal.Read
import proofs.«124770_g29755533426829_cont_9to1_2196_3_alg».proof.Proof.Spec
import proofs.«124770_g29755533426829_cont_9to1_2196_3_alg».proof.Proof.RefAlgebra
import proofs.«124770_g29755533426829_cont_9to1_2196_3_alg».proof.Proof.RefLayer1

noncomputable section

namespace Cert.Sage.Ref

open Cert.ReferenceIdeal Cert.ReferenceIdeal.Gen Cert.ReferenceIdeal.Read Idealize.ShloMosaic Idealize.ShloMosaic.ValueIdx
open scoped BigOperators

variable (x : FVec Ideal S10000x256 .f32) (adj : FVec Ideal S10000x10000 .f32) (W1 : FVec Ideal S256x512 .f32)
  (W2 : FVec Ideal S128x512 .f32)

/-- The second layer's divisor along row `r` is again the row sum of the adjacency plus one. -/
theorem v16_read (r : Fin 10000) (k : Fin 256) : val_main_v16 (F := Ideal) adj (ix2 r k) = deg adj r := by
  rw [val_main_v16_apply, val_main_v14_apply, val_main_v12_apply, val_main_v11_apply, val_main_v13_apply,
    val_main_cst_2_apply, val_main_cst_1_apply]
  simp only [Ideal.addf_def, Ideal.ofBits_def, Ideal.ofBits_zero_f32, ofBits_one_f32, zero_add]
  unfold deg
  refine congrArg (· + 1) (Finset.sum_congr rfl fun i _ => congrArg adj ?_)
  funext a
  apply Fin.ext
  match a with
  | ⟨0, _⟩ => show r.val * 1 + 0 = r.val; omega
  | ⟨1, _⟩ => rfl

section
variable (hx : ∀ i, IsReal (x i)) (hadj : ∀ i, IsReal (adj i)) (hW1 : ∀ i, IsReal (W1 i))
  (hdeg : ∀ r : Fin 10000, deg adj r ≠ 0)
include hx hadj hW1 hdeg

/-- The neighbourhood average of hidden unit `k` at node `r`. -/
theorem v17_read (r : Fin 10000) (k : Fin 256) :
    val_main_v17 (F := Ideal) x adj W1 (ix2 r k)
      = Ideal.div (∑ i : Fin 10000, adj (ix2 r i) * hid x adj W1 i k) (deg adj r) := by
  rw [val_main_v17_apply, val_main_v15_apply, v16_read, Ideal.hostDivf_def]
  refine congrArg (Ideal.div · _) (Finset.sum_congr rfl fun i _ => ?_)
  have e1 : lidx_main_v15 (ix2 r k) i = ix2 r i :=
    funext fun a => match a with | ⟨0, _⟩ => rfl | ⟨1, _⟩ => rfl
  have e2 : ridx_main_v15 (ix2 r k) i = ix2 i k :=
    funext fun a => match a with | ⟨0, _⟩ => rfl | ⟨1, _⟩ => rfl
  rw [e1, e2, v10_read x adj W1 hx hadj hW1 hdeg]

end

/-- The left half of the second joined row is the hidden layer. -/
theorem v18_lo (r : Fin 10000) (k : Fin 256) :
    val_main_v18 (F := Ideal) x adj W1 (ix2 r (lo k)) = val_main_v10 (F := Ideal) x adj W1 (ix2 r k) := by
  unfold val_main_v18
  exact concatenate_pair_apply_left (s₁ := S10000x256) (s₂ := S10000x256) 1 _ _ _ (ix2 r (lo k)) rfl (ix2 r k)
    (fun b => match b with | ⟨0, _⟩ => rfl | ⟨1, _⟩ => rfl)

/-- The right half of the second joined row is the hidden layer's neighbourhood average. -/
theorem v18_hi (r : Fin 10000) (k : Fin 256) :
    val_main_v18 (F := Ideal) x adj W1 (ix2 r (hi k)) = val_main_v17 (F := Ideal) x adj W1 (ix2 r k) := by
  unfold val_main_v18
  exact concatenate_pair_apply_right (s₁ := S10000x256) (s₂ := S10000x256) 1 _ _ _ (ix2 r (hi k)) rfl rfl (ix2 r k)
    (fun b => match b with | ⟨0, _⟩ => fun _ => rfl | ⟨1, _⟩ => fun h => absurd rfl h)
    (by show k.val + 256 = 256 + k.val; omega)

section
variable (hx : ∀ i, IsReal (x i)) (hadj : ∀ i, IsReal (adj i)) (hW1 : ∀ i, IsReal (W1 i))
  (hdeg : ∀ r : Fin 10000, deg adj r ≠ 0)
include hx hadj hW1 hdeg

/-- The second layer before the maximum: the contraction over 512 columns, split in its two halves. -/
theorem v20_read (r : Fin 10000) (e : Fin 128) :
    val_main_v20 (F := Ideal) x adj W1 W2 (ix2 r e)
      = (∑ j : Fin 256, hid x adj W1 r j * W2 (ix2 e (lo j)))
        + ∑ j : Fin 256, Ideal.div (∑ i : Fin 10000, adj (ix2 r i) * hid x adj W1 i j) (deg adj r)
            * W2 (ix2 e (hi j)) := by
  rw [val_main_v20_apply, sum_halves]
  refine congrArg₂ (· + ·) (Finset.sum_congr rfl fun k _ => ?_) (Finset.sum_congr rfl fun k _ => ?_)
  · have e1 : lidx_main_v20 (ix2 r e) (lo k) = ix2 r (lo k) :=
      funext fun a => match a with | ⟨0, _⟩ => rfl | ⟨1, _⟩ => rfl
    have e2 : idx_main_v19 (ridx_main_v20 (ix2 r e) (lo k)) = ix2 e (lo k) :=
      funext fun a => match a with | ⟨0, _⟩ => rfl | ⟨1, _⟩ => rfl
    rw [val_main_v19_apply, e1, e2, v18_lo, v10_read x adj W1 hx hadj hW1 hdeg]
  · have e1 : lidx_main_v20 (ix2 r e) (hi k) = ix2 r (hi k) :=
      funext fun a => match a with | ⟨0, _⟩ => rfl | ⟨1, _⟩ => rfl
    have e2 : idx_main_v19 (ridx_main_v20 (ix2 r e) (hi k)) = ix2 e (hi k) :=
      funext fun a => match a with | ⟨0, _⟩ => rfl | ⟨1, _⟩ => rfl
    rw [val_main_v19_apply, e1, e2, v18_hi, v17_read x adj W1 hx hadj hW1 hdeg]

end

/-- The reference's result is the specification's output array: every entry of the four arguments a real
    number, no node's degree plus one zero. -/
theorem ref_is_out (x : FVec Ideal Cert.ReferenceIdeal.S10000x256 .f32)
    (adj : FVec Ideal Cert.ReferenceIdeal.S10000x10000 .f32) (W1 : FVec Ideal Cert.ReferenceIdeal.S256x512 .f32)
    (W2 : FVec Ideal Cert.ReferenceIdeal.S128x512 .f32)
    (hx : ∀ i, ∃ r : ℝ, x i = (r : EReal)) (hadj : ∀ i, ∃ r : ℝ, adj i = (r : EReal))
    (hW1 : ∀ i, ∃ r : ℝ, W1 i = (r : EReal)) (hW2 : ∀ i, ∃ r : ℝ, W2 i = (r : EReal))
    (hdeg : ∀ r : Fin 10000, Cert.Sage.deg adj r ≠ 0) :
    Cert.ReferenceIdeal.Read.val_main_v21 (F := Ideal) x adj W1 W2 = Cert.Sage.outArr x adj W1 W2 := by
  funext i
  obtain ⟨r, e, rfl⟩ : ∃ (r : Fin 10000) (e : Fin 128), i = ix2 r e := ⟨i 0, i 1, eq_ix2 i⟩
  rw [val_main_v21_apply, val_main_call1_v0_apply, val_main_call1_cst_apply,
    v20_read x adj W1 W2 hx hadj hW1 hdeg]
  simp only [Ideal.maximumf_def, Ideal.ofBits_def, Ideal.ofBits_zero_f32]
  show _ = out x adj W1 W2 r e
  unfold out self2 proj2
  rw [avg_proj (fun i => adj (ix2 r i)) (fun i j => hid x adj W1 i j) (fun j => W2 (ix2 e (hi j))) (deg adj r)
    (fun i => hadj _) (fun i j => hid_real x adj W1 hx hadj hW1 hdeg i j) (fun j => hW2 _)
    (deg_real adj hadj r) (hdeg r)]

end Cert.Sage.Ref

end
-- ==== Proof.PreFacts.lean ====
/-
  What the precondition says, as mathematics.  The precondition is the conjunction of five tests, each
  reduced by "and" over a whole array: for each of the four argument arrays, |v| < +∞ at every entry;
  and for the adjacency, (Σ_k A[r,k]) + 1 ≠ 0 at every row r.  Over the extended reals |v| = max v (-v),
  so |v| < +∞ excludes both infinities: the entry is a real number.  The row sum is the exact sum from
  the initial value 0, so the last test is the statement deg r ≠ 0.
-/
import proofs.«124770_g29755533426829_cont_9to1_2196_3_alg».proof.Pre_finite_inputs
import proofs.«124770_g29755533426829_cont_9to1_2196_3_alg».proof.Proof.Gen.Pre_finite_inputs
import proofs.«124770_g29755533426829_cont_9to1_2196_3_alg».proof.Proof.Spec
import Idealize.ShloMosaic.Lib.ReduceAll
import Idealize.ShloMosaic.PureOps.Ideal.Laws

noncomputable section

namespace Cert.Sage.Pre

open Idealize.ShloMosaic Idealize.ShloMosaic.ValueIdx Cert.Pre_finite_inputs
open scoped BigOperators

/-- A rank-zero array has one index. -/
instance subsingleton_S_ : Subsingleton S_.Idx := ⟨fun a b => funext fun d => d.elim0⟩

/-- The pattern 0x7F800000 is +∞. -/
theorem ofBits_inf : Ideal.ofBits .f32 0x7F800000#32 = ⊤ := by simp [Ideal.ofBits, Ideal.ieee]

/-- The pattern 0x3F800000 is one. -/
theorem ofBits_one : Ideal.ofBits .f32 0x3F800000#32 = 1 := by
  rw [show (1 : EReal) = ((1 : ℝ) : EReal) by norm_cast]
  simp [Ideal.ofBits, Ideal.ieee, -EReal.coe_mul]; norm_num

/-- A one-bit word made from a proposition's truth value is 1 exactly when the proposition holds. -/
theorem ofBool_decide_eq_one (p : Prop) [Decidable p] : BitVec.ofBool (decide p) = 1#1 ↔ p := by
  by_cases h : p <;> simp [h]

/-- An extended real whose absolute value max v (-v) is below +∞ is a real number. -/
theorem real_of_abs_lt_top (v : EReal)
    (h : FloatOps.cmpf (F := Ideal) (φ := .f32) .olt (FloatOps.hostAbsf (F := Ideal) (φ := .f32) v) (FloatOps.ofBits (F := Ideal) .f32 0x7F800000#32) = 1#1) :
    ∃ r : ℝ, v = (r : EReal) := by
  have h' : BitVec.ofBool (decide (max v (-v) < Ideal.ofBits .f32 0x7F800000#32)) = 1#1 := h
  rw [ofBits_inf, ofBool_decide_eq_one, max_lt_iff] at h'
  induction v using EReal.rec with
  | bot => exact absurd h'.2 (by simp)
  | coe r => exact ⟨r, rfl⟩
  | top => exact absurd h'.1 (by simp)

/-- A value that compares "not equal" to the pattern of zero is not zero. -/
theorem ne_zero_of_une (a : EReal)
    (h : FloatOps.cmpf (F := Ideal) (φ := .f32) .une a (FloatOps.ofBits (F := Ideal) .f32 0x00000000#32) = 1#1) : a ≠ 0 := by
  have h' : BitVec.ofBool (decide (a ≠ Ideal.ofBits .f32 0x00000000#32)) = 1#1 := h
  rwa [ofBool_decide_eq_one, Ideal.ofBits_zero_f32] at h'

/-- The exact row sum from the initial value 0, plus one, is the degree plus one of the specification. -/
theorem rowsum_add_one (adj : FVec Ideal S10000x10000 .f32) [Facts] (r : Fin 10000) :
    addf (F := Ideal) (Host.reduceAdd (F := Ideal) adj (constant (F := Ideal) S_ .f32 0x00000000#32) Facts.reducesTo_S10000x10000_S10000_d1 Facts.h_S_)
        (broadcastInDim S10000 ![] Facts.bcast_S_S10000 (constant (F := Ideal) S_ .f32 0x3F800000#32)) (ix1 r)
      = Cert.Sage.deg adj r := by
  show Host.reduceAdd (F := Ideal) adj (constant (F := Ideal) S_ .f32 0x00000000#32) Facts.reducesTo_S10000x10000_S10000_d1 Facts.h_S_ (ix1 r)
      + Ideal.ofBits .f32 0x3F800000#32 = _
  simp only [Host.reduceAdd, Ideal.hostReduceAdd_def]
  rw [Ideal.hostReduceAdd_single Facts.reducesTo_S10000x10000_S10000_d1 (by decide), ofBits_one]
  show Ideal.ofBits .f32 0x00000000#32 + _ + 1 = _
  rw [Ideal.ofBits_zero_f32, zero_add]
  unfold Cert.Sage.deg
  refine congrArg (· + 1) (Finset.sum_congr rfl fun k _ => ?_)
  exact congrArg adj (funext fun a => Fin.ext (by match a with | ⟨0, _⟩ => rfl | ⟨1, _⟩ => rfl))

/-- The precondition, read back: every entry of the four arrays is a real number, and no degree plus one is zero. -/
theorem pre_facts [Cert.Pre_finite_inputs.Facts] (x : FVec Ideal Cert.Pre_finite_inputs.S10000x256 .f32) (adj : FVec Ideal Cert.Pre_finite_inputs.S10000x10000 .f32) (W1 : FVec Ideal Cert.Pre_finite_inputs.S256x512 .f32) (W2 : FVec Ideal Cert.Pre_finite_inputs.S128x512 .f32)
    (h : Cert.Pre_finite_inputs.fn (F := Ideal) x adj W1 W2 = fun _ => 1#1) :
    (∀ i, ∃ r : ℝ, x i = (r : EReal)) ∧ (∀ i, ∃ r : ℝ, adj i = (r : EReal)) ∧ (∀ i, ∃ r : ℝ, W1 i = (r : EReal)) ∧ (∀ i, ∃ r : ℝ, W2 i = (r : EReal)) ∧ (∀ r : Fin 10000, Cert.Sage.deg adj r ≠ 0) := by
  have e := congrFun h ValueIdx.ix0
  dsimp only [fn, fn_part1] at e
  simp only [andi, IntOp.andi_eq_one] at e
  obtain ⟨⟨⟨⟨e1, e2⟩, e3⟩, e4⟩, e5⟩ := e
  refine ⟨fun i => ?_, fun i => ?_, fun i => ?_, fun i => ?_, fun r => ?_⟩
  · exact real_of_abs_lt_top (x i) (Host.reduce_andi_all _ _ _ _ _ e1 i)
  · exact real_of_abs_lt_top (adj i) (Host.reduce_andi_all _ _ _ _ _ e2 i)
  · exact real_of_abs_lt_top (W1 i) (Host.reduce_andi_all _ _ _ _ _ e3 i)
  · exact real_of_abs_lt_top (W2 i) (Host.reduce_andi_all _ _ _ _ _ e4 i)
  · have e6 := Host.reduce_andi_all _ _ _ _ _ e5 (ix1 r)
    rw [← rowsum_add_one adj r]
    exact ne_zero_of_une _ e6

end Cert.Sage.Pre

end
-- ==== Proof.Claims.lean ====
/-
  The certificate's claims from the three runs.

  The two frames of the kernel are the kernel's run with only the argument arrays kept; the reference's frame
  is its run with the result dropped.  For the value claim: the kernel's run ends with the result array at the
  specification's output array of its four arguments; the reference's run ends with its result at the
  operations' composed term, which is the last stage of the reference read stage by stage, which is the same
  output array once the precondition has been read back as "every entry is a real number and no degree plus
  one is zero" and the two memories' arguments have been identified.
-/
import proofs.«124770_g29755533426829_cont_9to1_2196_3_alg».proof.Defs
import proofs.«124770_g29755533426829_cont_9to1_2196_3_alg».proof.Proof.K.Run
import proofs.«124770_g29755533426829_cont_9to1_2196_3_alg».proof.Proof.KI.Run
import proofs.«124770_g29755533426829_cont_9to1_2196_3_alg».proof.Proof.KI.KernelOut
import proofs.«124770_g29755533426829_cont_9to1_2196_3_alg».proof.Proof.Gen.ReferenceIdeal.Run
import proofs.«124770_g29755533426829_cont_9to1_2196_3_alg».proof.Proof.Gen.ReferenceIdeal.Read
import proofs.«124770_g29755533426829_cont_9to1_2196_3_alg».proof.Proof.RefLaw
import proofs.«124770_g29755533426829_cont_9to1_2196_3_alg».proof.Proof.PreFacts

noncomputable section

namespace Cert.Proof.Claims

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized program is the program's own text read over the extended reals, so this claim is the true
    proposition. -/
theorem preserves : Cert.preserves_Kernel_KernelIdeal := trivial

/-- The value claim, given that the kernel's result array ends at the specification's output array. -/
theorem algebraic_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Hand.W3 (F := Ideal) m ρ c (Proc.devRef .tc Cert.KernelIdeal.main_v11)
        = Cert.Sage.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))) :
    Cert.algebraic_KernelIdeal_ReferenceIdeal := by
  intro m ρ m' ρ' hpre hagree
  refine ⟨fun c => Cert.Sage.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Hand.mem_uc Cert.KernelIdeal.main_v11 (by decide))).trans (hk m ρ c),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨hx, hadj, hW1, hW2, hdeg⟩ := Cert.Sage.Pre.pre_facts _ _ _ _ (hpre c)
    rw [Cert.ReferenceIdeal.Read.val_main_v21_eq, (hagree c).1, (hagree c).2.1, (hagree c).2.2.1, (hagree c).2.2.2]
    exact Cert.Sage.Ref.ref_is_out _ _ _ _ hx hadj hW1 hW2 hdeg

end Cert.Proof.Claims

end
-- ==== Proof.KI.R0Pieces.lean ====
/-
  What each case of the layer-one body leaves in each buffer, as the body's arithmetic applied to what it loaded.
  At a later row block the three outputs are the payloads of the adjacency block, the scratch array, the 400
  feature rows of the block, the left half of the first weight array and the second weight array.  At the first
  row block the scratch array becomes the features times the right half of the first weight array, and the outputs
  are the same payloads with that product in the scratch array's place.  So at EVERY row block the outputs are the
  same function of the blocks, with the scratch array at the product the first block computes (`outsAt0_val`).
-/
import proofs.«124770_g29755533426829_cont_9to1_2196_3_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem out_B_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) :
    out0_B_4 c i arg1 harg1 arg2 harg2 arg3 harg3 arg4 harg4 arg5 harg5 arg6 harg6 arg7 harg7 arg8 harg8 hc0 x0 x1 x2 x3 xs0 = k0_pay4 x0 xs0 (View.ld x1 (Rect.unit (s := S10000x256) (k0_off1 i) S400x256.size (k0_off1_inb i))) (View.ld x2 (Rect.unit (s := S256x512) ![0, 0] S256x256.size inb_S256x512_S256x256_0_0)) x3 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0)]
  unfold kernelRun0_B
  dsimp only
  rw [View.canon_unit_zero hz2]
  simp only [View.readAt_eq_ld, harg1.read_unread, harg2.read_unread, harg3.read_unread, harg4.read_unread, harg8.read_unread, View.ld_unit_zero (S := S400x10000) hz2, View.ld_unit_zero (S := S10000x256) hz2, View.ld_unit_zero (S := S256x256) hz2]

theorem out_B_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) :
    out0_B_5 c i arg1 harg1 arg2 harg2 arg3 harg3 arg4 harg4 arg5 harg5 arg6 harg6 arg7 harg7 arg8 harg8 hc0 x0 x1 x2 x3 xs0 = k0_pay5 x0 xs0 (View.ld x1 (Rect.unit (s := S10000x256) (k0_off1 i) S400x256.size (k0_off1_inb i))) (View.ld x2 (Rect.unit (s := S256x512) ![0, 0] S256x256.size inb_S256x512_S256x256_0_0)) x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 xs0)]
  unfold kernelRun0_B
  dsimp only
  rw [View.canon_unit_zero hz2]
  simp only [View.readAt_eq_ld, harg1.read_unread, harg2.read_unread, harg3.read_unread, harg4.read_unread, harg8.read_unread, View.ld_unit_zero (S := S400x10000) hz2, View.ld_unit_zero (S := S10000x256) hz2, View.ld_unit_zero (S := S256x256) hz2]

theorem out_B_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : ¬cond0_0 i) (x0 : Vec F S400x10000 .f32) (x1 : Vec F S10000x256 .f32) (x2 : Vec F S256x512 .f32) (x3 : Vec F S256x256 .f32) (xs0 : Vec F S10000x256 .bf16) :
    out0_B_6 c i arg1 harg1 arg2 harg2 arg3 harg3 arg4 harg4 arg5 harg5 arg6 harg6 arg7 harg7 arg8 harg8 hc0 x0 x1 x2 x3 xs0 = k0_pay2 x0 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 xs0)]
  unfold kernelRun0_B
  dsimp only
  rw [View.canon_unit_zero hz2]
  simp only [View.readAt_eq_ld, harg1.read_unread, harg2.read_unread, harg3.read_unread, harg4.read_unread, harg8.read_unread, View.ld_unit_zero (S := S400x10000) hz2, View.ld_unit_zero (S := S10000x256) hz2, View.ld_unit_zero (S := S256x256) hz2]

theorem sout_A_0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) :
    sout0_A_0 c i arg1 harg1 arg2 harg2 arg3 harg3 arg4 harg4 arg5 harg5 arg6 harg6 arg7 harg7 arg8 harg8 hc0 x0 x1 x2 x3 = k0_pay1 x1 (View.ld x2 (Rect.unit (s := S256x512) ![0, 256] S256x256.size inb_S256x512_S256x256_0_256)) := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg1.read_unread, harg2.read_unread, harg3.read_unread, harg4.read_unread, View.ld_unit_zero (S := S400x10000) hz2, View.ld_unit_zero (S := S10000x256) hz2, View.ld_unit_zero (S := S256x256) hz2]

theorem out_A_4 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) :
    out0_A_4 c i arg1 harg1 arg2 harg2 arg3 harg3 arg4 harg4 arg5 harg5 arg6 harg6 arg7 harg7 arg8 harg8 hc0 x0 x1 x2 x3 = k0_pay4 x0 (k0_pay1 x1 (View.ld x2 (Rect.unit (s := S256x512) ![0, 256] S256x256.size inb_S256x512_S256x256_0_256))) (View.ld x1 (Rect.unit (s := S10000x256) (k0_off1 i) S400x256.size (k0_off1_inb i))) (View.ld x2 (Rect.unit (s := S256x512) ![0, 0] S256x256.size inb_S256x512_S256x256_0_0)) x3 := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz2, View.readCov_unit_zero (S := S10000x256) _ hz2]
  simp only [View.readAt_eq_ld, harg1.read_unread, harg2.read_unread, harg3.read_unread, harg4.read_unread, View.ld_unit_zero (S := S400x10000) hz2, View.ld_unit_zero (S := S10000x256) hz2, View.ld_unit_zero (S := S256x256) hz2]

theorem out_A_5 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) :
    out0_A_5 c i arg1 harg1 arg2 harg2 arg3 harg3 arg4 harg4 arg5 harg5 arg6 harg6 arg7 harg7 arg8 harg8 hc0 x0 x1 x2 x3 = k0_pay5 x0 (k0_pay1 x1 (View.ld x2 (Rect.unit (s := S256x512) ![0, 256] S256x256.size inb_S256x512_S256x256_0_256))) (View.ld x1 (Rect.unit (s := S10000x256) (k0_off1 i) S400x256.size (k0_off1_inb i))) (View.ld x2 (Rect.unit (s := S256x512) ![0, 0] S256x256.size inb_S256x512_S256x256_0_0)) x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz2, View.readCov_unit_zero (S := S10000x256) _ hz2]
  simp only [View.readAt_eq_ld, harg1.read_unread, harg2.read_unread, harg3.read_unread, harg4.read_unread, View.ld_unit_zero (S := S400x10000) hz2, View.ld_unit_zero (S := S10000x256) hz2, View.ld_unit_zero (S := S256x256) hz2]

theorem out_A_6 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S400x128 .f32) (harg5 : arg5.IsWhole) (arg6 : Memref sig .tc .vmem S400x128 .bf16) (harg6 : arg6.IsWhole) (arg7 : Memref sig .tc .vmem S400x1 .f32) (harg7 : arg7.IsWhole) (arg8 : Memref sig .tc .vmem S10000x256 .bf16) (harg8 : arg8.IsWhole) (hc0 : cond0_0 i) (x0 : Vec F S400x10000 .f32) (x1 : Vec F S10000x256 .f32) (x2 : Vec F S256x512 .f32) (x3 : Vec F S256x256 .f32) :
    out0_A_6 c i arg1 harg1 arg2 harg2 arg3 harg3 arg4 harg4 arg5 harg5 arg6 harg6 arg7 harg7 arg8 harg8 hc0 x0 x1 x2 x3 = k0_pay2 x0 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg1.read_unread, harg2.read_unread, harg3.read_unread, harg4.read_unread, View.ld_unit_zero (S := S400x10000) hz2, View.ld_unit_zero (S := S10000x256) hz2, View.ld_unit_zero (S := S256x256) hz2]

section
variable (V : (c : Dev nD) → (b : Ref sig .tc) → Buf (Elt F) ((c : Thread nD τ).loc b))

/-- The scratch array from the first row block on: the features times the right half of the first weight array. -/
theorem scr_val (c : Dev nD) :
    scr V c = k0_pay1 (iblk0 V c 1 t0) (View.ld (iblk0 V c 2 t0) (Rect.unit (s := S256x512) ![0, 256] S256x256.size inb_S256x512_S256x256_0_256)) := by
  unfold scr
  exact sout_A_0 ..

/-- The three outputs' staging buffers after the body at ANY row block `t`. -/
theorem outsAt0_val (c : Dev nD) (t : Fin cfg0.N) :
    outsAt0 V c t
      = (k0_pay4 (iblk0 V c 0 t) (scr V c) (View.ld (iblk0 V c 1 t) (Rect.unit (s := S10000x256) (k0_off1 (grid0.coords t)) S400x256.size (k0_off1_inb (grid0.coords t)))) (View.ld (iblk0 V c 2 t) (Rect.unit (s := S256x512) ![0, 0] S256x256.size inb_S256x512_S256x256_0_0)) (iblk0 V c 3 t),
         k0_pay5 (iblk0 V c 0 t) (scr V c) (View.ld (iblk0 V c 1 t) (Rect.unit (s := S10000x256) (k0_off1 (grid0.coords t)) S400x256.size (k0_off1_inb (grid0.coords t)))) (View.ld (iblk0 V c 2 t) (Rect.unit (s := S256x512) ![0, 0] S256x256.size inb_S256x512_S256x256_0_0)) (iblk0 V c 3 t),
         k0_pay2 (iblk0 V c 0 t)) := by
  by_cases hz : t.val = 0
  · obtain rfl : t = t0 := Fin.ext hz
    rw [outsAt0_A V c t0 hz, out_A_4, out_A_5, out_A_6, scr_val]
    rfl
  · rw [outsAt0_B V c t hz, out_B_4, out_B_5, out_B_6]
    rfl

end

end Cert.KernelIdeal.Hand

end
-- ==== Proof.KI.Blocks0.lean ====
/-
  What the first call's input windows hold, entry by entry.  The adjacency window's block at grid point t is
  rows 400·t .. 400·t + 399 of the adjacency matrix, all columns; the other three input windows (the features
  and the two rearranged weight arrays) are single blocks that are their whole arrays.  Inside the body, the
  load of the current rows of the features reads row 400·t + r at local row r, and the two loads of the first
  rearranged weight array read its left half (columns 0..255) and its right half (columns 256..511).
-/
import proofs.«124770_g29755533426829_cont_9to1_2196_3_alg».proof.Proof.KI.R0Runs
import proofs.«124770_g29755533426829_cont_9to1_2196_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

variable {F : FTy → Type} [FloatOps F]

/-- The grid is one axis of 25 points: the coordinate of point t is t. -/
theorem coords0_val : ∀ t : Fin cfg0.N, ((grid0.coords t) 0).val = t.val :=
  (by decide +kernel : ∀ t : Fin grid0.N, ((grid0.coords t) 0).val = t.val)

/-- The adjacency window's block index at point t is (t, 0). -/
theorem index0_0 : ∀ t : Fin cfg0.N, win0_0.index t 0 = t.val ∧ win0_0.index t 1 = 0 :=
  (by decide +kernel : ∀ t : Fin grid0.N, win0_0.index t 0 = t.val ∧ win0_0.index t 1 = 0)
/-- The features window's block index is (0, 0) at every point. -/
theorem index0_1 : ∀ t : Fin cfg0.N, win0_1.index t 0 = 0 ∧ win0_1.index t 1 = 0 :=
  (by decide +kernel : ∀ t : Fin grid0.N, win0_1.index t 0 = 0 ∧ win0_1.index t 1 = 0)
/-- The first rearranged weight window's block index is (0, 0) at every point. -/
theorem index0_2 : ∀ t : Fin cfg0.N, win0_2.index t 0 = 0 ∧ win0_2.index t 1 = 0 :=
  (by decide +kernel : ∀ t : Fin grid0.N, win0_2.index t 0 = 0 ∧ win0_2.index t 1 = 0)
/-- The second rearranged weight window's block index is (0, 0) at every point. -/
theorem index0_3 : ∀ t : Fin cfg0.N, win0_3.index t 0 = 0 ∧ win0_3.index t 1 = 0 :=
  (by decide +kernel : ∀ t : Fin grid0.N, win0_3.index t 0 = 0 ∧ win0_3.index t 1 = 0)

section Blocks
variable (V : (c : Dev nD) → (b : Ref sig .tc) → Buf (Elt F) ((c : Thread nD τ).loc b))

/-- The adjacency block at point t, at local row r and column k, is the adjacency at row 400·t + r, column k. -/
theorem iblk0_0_apply (c : Dev nD) (t : Fin cfg0.N) (r : Fin 400) (k : Fin 10000) :
    (iblk0 V c 0 t : Vec F S400x10000 .f32) (ix2 r k)
      = (V c main_arg1 : S10000x10000.Idx → Elt F .f32) (ix2 ⟨400 * t.val + r.val, by have := t.isLt; have := r.isLt; have hN : cfg0.N = 25 := N_0; omega⟩ k) := by
  have hi := index0_0 t
  unfold iblk0
  rw [View.read_apply]
  show V c main_arg1 _ = V c main_arg1 _
  congr 1
  funext a
  apply Fin.ext
  match a with
  | ⟨0, _⟩ => show win0_0.index t 0 * 400 + 1 * r.val = 400 * t.val + r.val; rw [hi.1]; omega
  | ⟨1, _⟩ => show win0_0.index t 1 * 10000 + 1 * k.val = k.val; rw [hi.2]; omega

/-- The features window's block is the whole features array. -/
theorem iblk0_1_eq (c : Dev nD) (t : Fin cfg0.N) : (iblk0 V c 1 t : Vec F S10000x256 .f32) = V c main_arg0 := by
  have hi := index0_1 t
  funext j
  unfold iblk0
  rw [View.read_apply]
  show V c main_arg0 _ = V c main_arg0 j
  congr 1
  funext a
  apply Fin.ext
  match a with
  | ⟨0, _⟩ => show win0_1.index t 0 * 10000 + 1 * (j 0).val = (j 0).val; rw [hi.1]; omega
  | ⟨1, _⟩ => show win0_1.index t 1 * 256 + 1 * (j 1).val = (j 1).val; rw [hi.2]; omega

/-- The first rearranged weight window's block is the whole array. -/
theorem iblk0_2_eq (c : Dev nD) (t : Fin cfg0.N) : (iblk0 V c 2 t : Vec F S256x512 .f32) = V c main_v4 := by
  have hi := index0_2 t
  funext j
  unfold iblk0
  rw [View.read_apply]
  show V c main_v4 _ = V c main_v4 j
  congr 1
  funext a
  apply Fin.ext
  match a with
  | ⟨0, _⟩ => show win0_2.index t 0 * 256 + 1 * (j 0).val = (j 0).val; rw [hi.1]; omega
  | ⟨1, _⟩ => show win0_2.index t 1 * 512 + 1 * (j 1).val = (j 1).val; rw [hi.2]; omega

/-- The second rearranged weight window's block is the whole array. -/
theorem iblk0_3_eq (c : Dev nD) (t : Fin cfg0.N) : (iblk0 V c 3 t : Vec F S256x256 .f32) = V c main_v9 := by
  have hi := index0_3 t
  funext j
  unfold iblk0
  rw [View.read_apply]
  show V c main_v9 _ = V c main_v9 j
  congr 1
  funext a
  apply Fin.ext
  match a with
  | ⟨0, _⟩ => show win0_3.index t 0 * 256 + 1 * (j 0).val = (j 0).val; rw [hi.1]; omega
  | ⟨1, _⟩ => show win0_3.index t 1 * 256 + 1 * (j 1).val = (j 1).val; rw [hi.2]; omega

end Blocks

/-! ## The body's partial loads at an index -/

/-- The load of the current 400 feature rows reads row 400·t + r at local row r. -/
theorem ld_rows (x1 : Vec F S10000x256 .f32) (t : Fin cfg0.N) (r : Fin 400) (k : Fin 256) :
    View.ld x1 (Rect.unit (s := S10000x256) (k0_off1 (grid0.coords t)) S400x256.size (k0_off1_inb (grid0.coords t))) (ix2 r k)
      = x1 (ix2 ⟨400 * t.val + r.val, by have := t.isLt; have := r.isLt; have hN : cfg0.N = 25 := N_0; omega⟩ k) := by
  show x1 _ = x1 _
  congr 1
  funext a
  apply Fin.ext
  match a with
  | ⟨0, _⟩ =>
    show k0_off1 (grid0.coords t) 0 + 1 * r.val = 400 * t.val + r.val
    rw [k0_off1_eq, ← coords0_val t]
    show 400 * ((grid0.coords t) 0).val + 1 * r.val = _
    omega
  | ⟨1, _⟩ =>
    show k0_off1 (grid0.coords t) 1 + 1 * k.val = k.val
    rw [k0_off1_eq]
    show 0 + 1 * k.val = k.val
    omega

/-- The load of the left half of the first rearranged weight array. -/
theorem ld_lo (x2 : Vec F S256x512 .f32) (k j : Fin 256) :
    View.ld x2 (Rect.unit (s := S256x512) ![0, 0] S256x256.size inb_S256x512_S256x256_0_0) (ix2 k j) = x2 (ix2 k (Cert.Sage.lo j)) := by
  show x2 _ = x2 _
  congr 1
  funext a
  apply Fin.ext
  match a with
  | ⟨0, _⟩ => show 0 + 1 * k.val = k.val; omega
  | ⟨1, _⟩ => show 0 + 1 * j.val = j.val; omega

/-- The load of its right half. -/
theorem ld_hi (x2 : Vec F S256x512 .f32) (k j : Fin 256) :
    View.ld x2 (Rect.unit (s := S256x512) ![0, 256] S256x256.size inb_S256x512_S256x256_0_256) (ix2 k j) = x2 (ix2 k (Cert.Sage.hi j)) := by
  show x2 _ = x2 _
  congr 1
  funext a
  apply Fin.ext
  match a with
  | ⟨0, _⟩ => show 0 + 1 * k.val = k.val; omega
  | ⟨1, _⟩ => show 256 + 1 * j.val = 256 + j.val; omega

end Cert.KernelIdeal.HandValue

end
-- ==== Proof.KI.Pay0Value.lean ====
/-
  The first kernel's stored values, read entry by entry over the extended reals.

  The projection of the features: entry (i, j) is Σ_k v31[i,k] · v32[k,j].  The divisor column: entry (r, 0) is
  (Σ_k v3[r,k]) + 1.  The second-layer pre-projection of a block of 400 rows: with
  h[r,c] = max (Σ_k v13[r,k] · v14[k,c] + (Σ_i v3[r,i] · v5[i,c]) / ((Σ_k v3[r,k]) + 1)) 0, entry (r, j) is
  Σ_c h[r,c] · v22[c,j]; its left 128 columns and its right 128 columns are the two stored halves.
  Matrix products are taken into a zero accumulator, so each is the bare sum over the contracted coordinate;
  the narrowing to 16 bits is the identity on extended reals.
-/
import proofs.«124770_g29755533426829_cont_9to1_2196_3_alg».proof.Proof.Gen.KernelIdeal.Skeleton
import proofs.«124770_g29755533426829_cont_9to1_2196_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen Idealize.ShloMosaic Idealize.ShloMosaic.ValueIdx
open scoped BigOperators

/-! ## Two column layouts read at an index -/

section Layout
variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-- The word `0x3F800000` is the number one. -/
theorem ofBits_one_f32 : Ideal.ofBits .f32 0x3F800000#32 = 1 := by
  simp [Ideal.ofBits, Ideal.ieee]
  rw [← EReal.coe_mul, ← EReal.coe_one, EReal.coe_eq_coe_iff]; norm_num

/-! ## The three matrix products at an index -/

theorem mmA_lhs0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
theorem mmA_rhs1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl
/-- A [10000, 256] × [256, 256] matrix product into a zero accumulator, read at `(i, j)`: the sum over the
    contracted coordinate `k` of the left operand at `(i, k)` times the right at `(k, j)`. -/
theorem mmA_apply {φ₁ φ₂ : FTy} (l : FVec Ideal S10000x256 φ₁) (r : FVec Ideal S256x256 φ₂) (i : Fin 10000) (j : Fin 256) :
    FloatOps.matmul dot_S10000x256_S256x256_S10000x256_1_0_0_1_n_n none l r (constant S10000x256 .f32 0x00000000#32) (ix2 i j)
      = ∑ k : Fin 256, l (ix2 i k) * r (ix2 k j) := by
  rw [Ideal.matmul_constant_zero_apply,
    ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 i j) ((contrEquiv1 dot_S10000x256_S256x256_S10000x256_1_0_0_1_n_n 256 rfl rfl).symm k) = ix2 i k :=
    funext fun a => Fin.ext (by
      match a with
      | ⟨0, _⟩ => exact mmA_lhs0 _ _
      | ⟨1, _⟩ => exact (dot_S10000x256_S256x256_S10000x256_1_0_0_1_n_n.lhsIdx_val_of_single rfl _ _).trans hk)
  have er : dot_S10000x256_S256x256_S10000x256_1_0_0_1_n_n.rhsIdx (ix2 i j) ((contrEquiv1 dot_S10000x256_S256x256_S10000x256_1_0_0_1_n_n 256 rfl rfl).symm k) = ix2 k j :=
    funext fun a => Fin.ext (by
      match a with
      | ⟨0, _⟩ => exact (dot_S10000x256_S256x256_S10000x256_1_0_0_1_n_n.rhsIdx_val_of_single rfl _ _).trans hk
      | ⟨1, _⟩ => exact mmA_rhs1 _ _)
  rw [el, er]

theorem mmB_lhs0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide),
    dif_pos (show (0 : Fin S400x10000.rank) ∈ dot_S400x10000_S10000x256_S400x256_1_0_0_1_n_n.lhsNonContracting by decide)]
  rfl
theorem mmB_rhs1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide),
    dif_pos (show (1 : Fin S10000x256.rank) ∈ dot_S400x10000_S10000x256_S400x256_1_0_0_1_n_n.rhsNonContracting by decide)]
  rfl
/-- A [400, 10000] × [10000, 256] matrix product into a zero accumulator, read at `(i, j)`: the sum over the
    contracted coordinate `k` of the left operand at `(i, k)` times the right at `(k, j)`. -/
theorem mmB_apply {φ₁ φ₂ : FTy} (l : FVec Ideal S400x10000 φ₁) (r : FVec Ideal S10000x256 φ₂) (i : Fin 400) (j : Fin 256) :
    FloatOps.matmul dot_S400x10000_S10000x256_S400x256_1_0_0_1_n_n none l r (constant S400x256 .f32 0x00000000#32) (ix2 i j)
      = ∑ k : Fin 10000, l (ix2 i k) * r (ix2 k j) := by
  rw [Ideal.matmul_constant_zero_apply,
    ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 i j) ((contrEquiv1 dot_S400x10000_S10000x256_S400x256_1_0_0_1_n_n 10000 rfl rfl).symm k) = ix2 i k :=
    funext fun a => Fin.ext (by
      match a with
      | ⟨0, _⟩ => exact mmB_lhs0 _ _
      | ⟨1, _⟩ => exact (dot_S400x10000_S10000x256_S400x256_1_0_0_1_n_n.lhsIdx_val_of_single rfl _ _).trans hk)
  have er : dot_S400x10000_S10000x256_S400x256_1_0_0_1_n_n.rhsIdx (ix2 i j) ((contrEquiv1 dot_S400x10000_S10000x256_S400x256_1_0_0_1_n_n 10000 rfl rfl).symm k) = ix2 k j :=
    funext fun a => Fin.ext (by
      match a with
      | ⟨0, _⟩ => exact (dot_S400x10000_S10000x256_S400x256_1_0_0_1_n_n.rhsIdx_val_of_single rfl _ _).trans hk
      | ⟨1, _⟩ => exact mmB_rhs1 _ _)
  rw [el, er]

theorem mmC_lhs0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide),
    dif_pos (show (0 : Fin S400x256.rank) ∈ dot_S400x256_S256x256_S400x256_1_0_0_1_n_n.lhsNonContracting by decide)]
  rfl
theorem mmC_rhs1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide),
    dif_pos (show (1 : Fin S256x256.rank) ∈ dot_S400x256_S256x256_S400x256_1_0_0_1_n_n.rhsNonContracting by decide)]
  rfl
/-- A [400, 256] × [256, 256] matrix product into a zero accumulator, read at `(i, j)`: the sum over the
    contracted coordinate `k` of the left operand at `(i, k)` times the right at `(k, j)`. -/
theorem mmC_apply {φ₁ φ₂ : FTy} (l : FVec Ideal S400x256 φ₁) (r : FVec Ideal S256x256 φ₂) (i : Fin 400) (j : Fin 256) :
    FloatOps.matmul dot_S400x256_S256x256_S400x256_1_0_0_1_n_n none l r (constant S400x256 .f32 0x00000000#32) (ix2 i j)
      = ∑ k : Fin 256, l (ix2 i k) * r (ix2 k j) := by
  rw [Ideal.matmul_constant_zero_apply,
    ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 i j) ((contrEquiv1 dot_S400x256_S256x256_S400x256_1_0_0_1_n_n 256 rfl rfl).symm k) = ix2 i k :=
    funext fun a => Fin.ext (by
      match a with
      | ⟨0, _⟩ => exact mmC_lhs0 _ _
      | ⟨1, _⟩ => exact (dot_S400x256_S256x256_S400x256_1_0_0_1_n_n.lhsIdx_val_of_single rfl _ _).trans hk)
  have er : dot_S400x256_S256x256_S400x256_1_0_0_1_n_n.rhsIdx (ix2 i j) ((contrEquiv1 dot_S400x256_S256x256_S400x256_1_0_0_1_n_n 256 rfl rfl).symm k) = ix2 k j :=
    funext fun a => Fin.ext (by
      match a with
      | ⟨0, _⟩ => exact (dot_S400x256_S256x256_S400x256_1_0_0_1_n_n.rhsIdx_val_of_single rfl _ _).trans hk
      | ⟨1, _⟩ => exact mmC_rhs1 _ _)
  rw [el, er]

/-! ## The payloads -/

/-- The stored projection of the features. -/
theorem k0_pay1_apply (v31 : Vec Ideal S10000x256 .f32) (v32 : Vec Ideal S256x256 .f32) (i : Fin 10000) (j : Fin 256) :
    k0_pay1 (F := Ideal) v31 v32 (ix2 i j) = ∑ k : Fin 256, v31 (ix2 i k) * v32 (ix2 k j) := by
  unfold k0_pay1
  simp only [shapeCast_self]
  exact mmA_apply (φ₁ := .f32) (φ₂ := .f32) v31 v32 i j

/-- The stored divisor column. -/
theorem k0_pay2_apply (v3 : Vec Ideal S400x10000 .f32) (r : Fin 400) :
    k0_pay2 (F := Ideal) v3 (ix2 r (0 : Fin 1)) = (∑ k : Fin 10000, v3 (ix2 r k)) + 1 := by
  unfold k0_pay2
  show shapeCast S400x1 (multiReduction .add [1] S400 v3 0x00000000#32 reduces_S400x10000_S400 (.inl rfl) rfl)
      shapeCasts_S400_S400x1 (ix2 r (0 : Fin 1)) + Ideal.ofBits .f32 0x3F800000#32 = _
  rw [ofBits_one_f32, shapeCast_a_a1_apply]
  refine congrArg (· + 1) ?_
  refine (Ideal.multiReduction_add_single (φ := .f32) v3 _ reduces_S400x10000_S400 _ _ (ix1 r)).trans ?_
  exact Finset.sum_congr rfl fun k _ =>
    congrArg v3 (funext fun a => Fin.ext (by match a with | ⟨0, _⟩ => rfl | ⟨1, _⟩ => rfl))

/-- The second-layer pre-projection of a block of rows. -/
theorem k0_pay3_apply (v3 : Vec Ideal S400x10000 .f32) (v5 : Vec Ideal S10000x256 .bf16)
    (v13 : Vec Ideal S400x256 .f32) (v14 : Vec Ideal S256x256 .f32) (v22 : Vec Ideal S256x256 .f32)
    (r : Fin 400) (j : Fin 256) :
    k0_pay3 (F := Ideal) v3 v5 v13 v14 v22 (ix2 r j)
      = ∑ h : Fin 256, max ((∑ k : Fin 256, v13 (ix2 r k) * v14 (ix2 k h))
          + Ideal.div (∑ i : Fin 10000, v3 (ix2 r i) * v5 (ix2 i h)) ((∑ k : Fin 10000, v3 (ix2 r k)) + 1)) 0
          * v22 (ix2 h j) := by
  unfold k0_pay3
  simp only [shapeCast_self]
  refine (mmC_apply (φ₁ := .f32) (φ₂ := .f32) _ v22 r j).trans
    (Finset.sum_congr rfl fun h _ => congrArg (· * _) ?_)
  show max (FloatOps.matmul (F := Ideal) (φ₁ := .f32) (φ₂ := .f32) dot_S400x256_S256x256_S400x256_1_0_0_1_n_n none v13 v14
        (constant (F := Ideal) S400x256 .f32 0x00000000#32) (ix2 r h)
      + Ideal.div (FloatOps.matmul (F := Ideal) (φ₁ := .bf16) (φ₂ := .bf16) dot_S400x10000_S10000x256_S400x256_1_0_0_1_n_n none
          (truncf (F := Ideal) .bf16 v3 bitsLt_bf16_f32) v5 (constant (F := Ideal) S400x256 .f32 0x00000000#32) (ix2 r h))
        (broadcastTo S400x256 (k0_pay2 (F := Ideal) v3) broadcasts_S400x1_S400x256 (ix2 r h)))
      (Ideal.ofBits .f32 0x00000000#32) = _
  rw [mmC_apply, mmB_apply, broadcastTo_a1_ab_apply, k0_pay2_apply, Ideal.ofBits_zero_f32]
  rfl

/-- The stored left half: columns 0 to 127 of the pre-projection. -/
theorem k0_pay4_apply (v3 : Vec Ideal S400x10000 .f32) (v5 : Vec Ideal S10000x256 .bf16)
    (v13 : Vec Ideal S400x256 .f32) (v14 : Vec Ideal S256x256 .f32) (v22 : Vec Ideal S256x256 .f32)
    (r : Fin 400) (e : Fin 128) :
    k0_pay4 (F := Ideal) v3 v5 v13 v14 v22 (ix2 r e)
      = k0_pay3 (F := Ideal) v3 v5 v13 v14 v22 (ix2 r (⟨e.val, by omega⟩ : Fin 256)) := by
  unfold k0_pay4
  exact slice2_axis1_apply 0 _ slices_S400x256_o0_0_S400x128 r e ⟨e.val, by omega⟩ (Nat.zero_add _).symm

/-- The stored right half: columns 128 to 255 of the pre-projection. -/
theorem k0_pay5_apply (v3 : Vec Ideal S400x10000 .f32) (v5 : Vec Ideal S10000x256 .bf16)
    (v13 : Vec Ideal S400x256 .f32) (v14 : Vec Ideal S256x256 .f32) (v22 : Vec Ideal S256x256 .f32)
    (r : Fin 400) (e : Fin 128) :
    k0_pay5 (F := Ideal) v3 v5 v13 v14 v22 (ix2 r e)
      = k0_pay3 (F := Ideal) v3 v5 v13 v14 v22 (ix2 r (⟨128 + e.val, by omega⟩ : Fin 256)) := by
  unfold k0_pay5
  show extractStridedSlice S400x128 ![0, 128] (k0_pay3 (F := Ideal) v3 v5 v13 v14 v22)
    slices_S400x256_o0_128_S400x128 (ix2 r e) = _
  exact slice2_axis1_apply 128 _ slices_S400x256_o0_128_S400x128 r e ⟨128 + e.val, by omega⟩ rfl

end Cert.KernelIdeal.HandValue

end
-- ==== Proof.KI.Final0.lean ====
/-
  The first call's two weight-product outputs as whole arrays.  At row block t the body stores, for the 400
  rows 400·t .. 400·t + 399, the hidden layer times the second rearranged weight array, its left 128 columns
  in one output and its right 128 columns in the other.  The hidden layer of a row is computed from that row of
  the adjacency block, the current rows of the features, the left half of the first rearranged weight array and
  the scratch array; the scratch array holds, from the first block on, the features times the right half of the
  first rearranged weight array, for ALL rows, the same at every block.  So block t of each output is block t
  of one function of the whole arrays, and the 25 blocks tile the 10000 rows.
-/
import proofs.«124770_g29755533426829_cont_9to1_2196_3_alg».proof.Proof.KI.R0Pieces
import proofs.«124770_g29755533426829_cont_9to1_2196_3_alg».proof.Proof.KI.Blocks0
import proofs.«124770_g29755533426829_cont_9to1_2196_3_alg».proof.Proof.KI.Pay0Value
import proofs.«124770_g29755533426829_cont_9to1_2196_3_alg».proof.Proof.KernelFun
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- Row r of row block t. -/
abbrev rowOf (t : Fin cfg0.N) (r : Fin 400) : Fin 10000 :=
  ⟨400 * t.val + r.val, by have := t.isLt; have := r.isLt; have hN : cfg0.N = 25 := N_0; omega⟩

/-- The body's weight-product payload on blocks that are rows of whole arrays: the kernel's second product at
    that row of the whole arrays. -/
theorem pay3_kz (v3 : Vec Ideal S400x10000 .f32) (v5 : Vec Ideal S10000x256 .bf16) (v13 : Vec Ideal S400x256 .f32)
    (v14 : Vec Ideal S256x256 .f32) (v22 : Vec Ideal S256x256 .f32)
    (X : Cert.Sage.Mat 10000 256) (A : Cert.Sage.Mat 10000 10000) (C1 : Cert.Sage.Mat 256 512) (C2 : Cert.Sage.Mat 256 256)
    (R : Fin 10000) (r : Fin 400)
    (h3 : ∀ i : Fin 10000, v3 (ix2 r i) = A (ix2 R i))
    (h5 : ∀ (i : Fin 10000) (h : Fin 256), v5 (ix2 i h) = Cert.Sage.kproj1 X C1 i h)
    (h13 : ∀ k : Fin 256, v13 (ix2 r k) = X (ix2 R k))
    (h14 : ∀ k h : Fin 256, v14 (ix2 k h) = C1 (ix2 k (Cert.Sage.lo h)))
    (h22 : ∀ h j : Fin 256, v22 (ix2 h j) = C2 (ix2 h j)) (j : Fin 256) :
    k0_pay3 (F := Ideal) v3 v5 v13 v14 v22 (ix2 r j) = Cert.Sage.kz X A C1 C2 R j := by
  rw [k0_pay3_apply]
  unfold Cert.Sage.kz Cert.Sage.khid Cert.Sage.deg
  simp only [h3, h5, h13, h14, h22]

/-- The stored left half of that payload: the left 128 columns. -/
theorem pay4_kz (v3 : Vec Ideal S400x10000 .f32) (v5 : Vec Ideal S10000x256 .bf16) (v13 : Vec Ideal S400x256 .f32)
    (v14 : Vec Ideal S256x256 .f32) (v22 : Vec Ideal S256x256 .f32)
    (X : Cert.Sage.Mat 10000 256) (A : Cert.Sage.Mat 10000 10000) (C1 : Cert.Sage.Mat 256 512) (C2 : Cert.Sage.Mat 256 256)
    (R : Fin 10000) (r : Fin 400)
    (h3 : ∀ i : Fin 10000, v3 (ix2 r i) = A (ix2 R i))
    (h5 : ∀ (i : Fin 10000) (h : Fin 256), v5 (ix2 i h) = Cert.Sage.kproj1 X C1 i h)
    (h13 : ∀ k : Fin 256, v13 (ix2 r k) = X (ix2 R k))
    (h14 : ∀ k h : Fin 256, v14 (ix2 k h) = C1 (ix2 k (Cert.Sage.lo h)))
    (h22 : ∀ h j : Fin 256, v22 (ix2 h j) = C2 (ix2 h j)) (e : Fin 128) :
    k0_pay4 (F := Ideal) v3 v5 v13 v14 v22 (ix2 r e) = Cert.Sage.kz X A C1 C2 R (Cert.Sage.lo2 e) :=
  (k0_pay4_apply v3 v5 v13 v14 v22 r e).trans (pay3_kz v3 v5 v13 v14 v22 X A C1 C2 R r h3 h5 h13 h14 h22 (Cert.Sage.lo2 e))

/-- The stored right half: the right 128 columns. -/
theorem pay5_kz (v3 : Vec Ideal S400x10000 .f32) (v5 : Vec Ideal S10000x256 .bf16) (v13 : Vec Ideal S400x256 .f32)
    (v14 : Vec Ideal S256x256 .f32) (v22 : Vec Ideal S256x256 .f32)
    (X : Cert.Sage.Mat 10000 256) (A : Cert.Sage.Mat 10000 10000) (C1 : Cert.Sage.Mat 256 512) (C2 : Cert.Sage.Mat 256 256)
    (R : Fin 10000) (r : Fin 400)
    (h3 : ∀ i : Fin 10000, v3 (ix2 r i) = A (ix2 R i))
    (h5 : ∀ (i : Fin 10000) (h : Fin 256), v5 (ix2 i h) = Cert.Sage.kproj1 X C1 i h)
    (h13 : ∀ k : Fin 256, v13 (ix2 r k) = X (ix2 R k))
    (h14 : ∀ k h : Fin 256, v14 (ix2 k h) = C1 (ix2 k (Cert.Sage.lo h)))
    (h22 : ∀ h j : Fin 256, v22 (ix2 h j) = C2 (ix2 h j)) (e : Fin 128) :
    k0_pay5 (F := Ideal) v3 v5 v13 v14 v22 (ix2 r e) = Cert.Sage.kz X A C1 C2 R (Cert.Sage.hi2 e) :=
  (k0_pay5_apply v3 v5 v13 v14 v22 r e).trans (pay3_kz v3 v5 v13 v14 v22 X A C1 C2 R r h3 h5 h13 h14 h22 (Cert.Sage.hi2 e))

section
variable (V : (c : Dev nD) → (b : Ref sig .tc) → Buf (Elt Ideal) ((c : Thread nD τ).loc b))

/-- The features' current rows, as the body loads them from the features window's block. -/
theorem rows_apply (c : Dev nD) (t : Fin cfg0.N) (r : Fin 400) (k : Fin 256) :
    View.ld (iblk0 V c 1 t : Vec Ideal S10000x256 .f32) (Rect.unit (s := S10000x256) (k0_off1 (grid0.coords t)) S400x256.size (k0_off1_inb (grid0.coords t))) (ix2 r k)
      = (V c main_arg0 : S10000x256.Idx → EReal) (ix2 (rowOf t r) k) := by
  rw [iblk0_1_eq]; exact ld_rows _ t r k

/-- The left half of the first rearranged weight array, as the body loads it from its window's block. -/
theorem lo_apply (c : Dev nD) (t : Fin cfg0.N) (k h : Fin 256) :
    View.ld (iblk0 V c 2 t : Vec Ideal S256x512 .f32) (Rect.unit (s := S256x512) ![0, 0] S256x256.size inb_S256x512_S256x256_0_0) (ix2 k h)
      = (V c main_v4 : S256x512.Idx → EReal) (ix2 k (Cert.Sage.lo h)) := by
  rw [iblk0_2_eq]; exact ld_lo _ k h

/-- The second rearranged weight array's block is the array. -/
theorem c2_apply (c : Dev nD) (t : Fin cfg0.N) (h j : Fin 256) :
    (iblk0 V c 3 t : Vec Ideal S256x256 .f32) (ix2 h j) = (V c main_v9 : S256x256.Idx → EReal) (ix2 h j) := by
  rw [iblk0_3_eq]

/-- The scratch array is the first layer's neighbour projection of the whole arrays. -/
theorem scr_apply (c : Dev nD) (i : Fin 10000) (j : Fin 256) :
    (scr V c : Vec Ideal S10000x256 .bf16) (ix2 i j) = Cert.Sage.kproj1 (V c main_arg0) (V c main_v4) i j := by
  rw [scr_val, k0_pay1_apply]
  unfold Cert.Sage.kproj1
  refine Finset.sum_congr rfl fun k _ => ?_
  rw [iblk0_1_eq, iblk0_2_eq, ld_hi]

/-- Block t of the left output at local row r, column e. -/
theorem outs4_apply (c : Dev nD) (t : Fin cfg0.N) (r : Fin 400) (e : Fin 128) :
    ((outsAt0 V c t).1 : Vec Ideal S400x128 .f32) (ix2 r e)
      = Cert.Sage.kz (V c main_arg0) (V c main_arg1) (V c main_v4) (V c main_v9) (rowOf t r) (Cert.Sage.lo2 e) := by
  rw [outsAt0_val]
  exact pay4_kz (iblk0 V c 0 t) (scr V c) _ _ (iblk0 V c 3 t) (V c main_arg0) (V c main_arg1) (V c main_v4) (V c main_v9) (rowOf t r) r
    (fun i => iblk0_0_apply V c t r i) (scr_apply V c) (rows_apply V c t r) (lo_apply V c t) (c2_apply V c t) e

/-- Block t of the right output at local row r, column e. -/
theorem outs5_apply (c : Dev nD) (t : Fin cfg0.N) (r : Fin 400) (e : Fin 128) :
    ((outsAt0 V c t).2.1 : Vec Ideal S400x128 .bf16) (ix2 r e)
      = Cert.Sage.kz (V c main_arg0) (V c main_arg1) (V c main_v4) (V c main_v9) (rowOf t r) (Cert.Sage.hi2 e) := by
  rw [outsAt0_val]
  exact pay5_kz (iblk0 V c 0 t) (scr V c) _ _ (iblk0 V c 3 t) (V c main_arg0) (V c main_arg1) (V c main_v4) (V c main_v9) (rowOf t r) r
    (fun i => iblk0_0_apply V c t r i) (scr_apply V c) (rows_apply V c t r) (lo_apply V c t) (c2_apply V c t) e

end

/-! ## From blocks to the arrays -/

/-- The left output window's block index at point t is (t, 0). -/
theorem index0_4 : ∀ t : Fin cfg0.N, win0_4.index t 0 = t.val ∧ win0_4.index t 1 = 0 :=
  (by decide +kernel : ∀ t : Fin grid0.N, win0_4.index t 0 = t.val ∧ win0_4.index t 1 = 0)
/-- The right output window's block index at point t is (t, 0). -/
theorem index0_5 : ∀ t : Fin cfg0.N, win0_5.index t 0 = t.val ∧ win0_5.index t 1 = 0 :=
  (by decide +kernel : ∀ t : Fin grid0.N, win0_5.index t 0 = t.val ∧ win0_5.index t 1 = 0)

/-- An index of the left output is in point t's block iff each coordinate is in the block's range. -/
theorem mem_blk0_4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v10_0).slice (win0_4.rect t)).set ↔ _
  rw [View.set_slice_whole, Rect.mem_set_unit]
  exact Iff.rfl

/-- The same for the right output. -/
theorem mem_blk0_5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v10_1).slice (win0_5.rect t)).set ↔ _
  rw [View.set_slice_whole, Rect.mem_set_unit]
  exact Iff.rfl

/-- Row i is in the block of point i / 400: the 25 row blocks tile the left output. -/
theorem cover0_4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  refine ⟨t, flush0_4 t, ?_⟩
  rw [mem_blk0_4]
  have hi := index0_4 t
  intro a
  match a with
  | ⟨0, _⟩ => show win0_4.index t 0 * 400 ≤ (i 0).val ∧ (i 0).val < win0_4.index t 0 * 400 + 400; rw [hi.1]; omega
  | ⟨1, _⟩ => show win0_4.index t 1 * 128 ≤ (i 1).val ∧ (i 1).val < win0_4.index t 1 * 128 + 128; rw [hi.2]; omega

/-- The same for the right output. -/
theorem cover0_5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  refine ⟨t, flush0_5 t, ?_⟩
  rw [mem_blk0_5]
  have hi := index0_5 t
  intro a
  match a with
  | ⟨0, _⟩ => show win0_5.index t 0 * 400 ≤ (i 0).val ∧ (i 0).val < win0_5.index t 0 * 400 + 400; rw [hi.1]; omega
  | ⟨1, _⟩ => show win0_5.index t 1 * 128 ≤ (i 1).val ∧ (i 1).val < win0_5.index t 1 * 128 + 128; rw [hi.2]; omega

section
variable (V : (c : Dev nD) → (b : Ref sig .tc) → Buf (Elt Ideal) ((c : Thread nD τ).loc b))

/-- The left output as one function of the whole arrays. -/
abbrev G4 (c : Dev nD) : S10000x128.Idx → EReal := fun j =>
  Cert.Sage.kz (V c main_arg0) (V c main_arg1) (V c main_v4) (V c main_v9) ⟨(j 0).val, idx2_lt0 j⟩ (Cert.Sage.lo2 ⟨(j 1).val, idx2_lt1 j⟩)

/-- The right output as one function of the whole arrays. -/
abbrev G5 (c : Dev nD) : S10000x128.Idx → EReal := fun j =>
  Cert.Sage.kz (V c main_arg0) (V c main_arg1) (V c main_v4) (V c main_v9) ⟨(j 0).val, idx2_lt0 j⟩ (Cert.Sage.hi2 ⟨(j 1).val, idx2_lt1 j⟩)

/-- What point t writes back to the left output is block t of that function. -/
theorem flushed0_4_eq (c : Dev nD) (t : Fin cfg0.N) :
    (dat0 (F := Ideal) V c).flushed 4 t = ((cfg0.win 4).blk t).view.read (Elt Ideal) (G4 V c) := by
  show (cfg0.win 4).cut (grid0.coords t) ((dat0 (F := Ideal) V c).after 4 t) = _
  rw [after0_4]
  have hi := index0_4 t
  funext y
  obtain ⟨r, e, rfl⟩ : ∃ (r : Fin 400) (e : Fin 128), y = ix2 r e := ⟨y 0, y 1, eq_ix2 y⟩
  rw [View.read_apply]
  refine (outs4_apply V c t r e).trans ?_
  refine congrArg₂ (Cert.Sage.kz (V c main_arg0) (V c main_arg1) (V c main_v4) (V c main_v9)) (Fin.ext ?_) (congrArg Cert.Sage.lo2 (Fin.ext ?_))
  · show 400 * t.val + r.val = win0_4.index t 0 * 400 + 1 * r.val; rw [hi.1]; omega
  · show e.val = win0_4.index t 1 * 128 + 1 * e.val; rw [hi.2]; omega

/-- What point t writes back to the right output is block t of that function. -/
theorem flushed0_5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  have hi := index0_5 t
  funext y
  obtain ⟨r, e, rfl⟩ : ∃ (r : Fin 400) (e : Fin 128), y = ix2 r e := ⟨y 0, y 1, eq_ix2 y⟩
  rw [View.read_apply]
  refine (outs5_apply V c t r e).trans ?_
  refine congrArg₂ (Cert.Sage.kz (V c main_arg0) (V c main_arg1) (V c main_v4) (V c main_v9)) (Fin.ext ?_) (congrArg Cert.Sage.hi2 (Fin.ext ?_))
  · show 400 * t.val + r.val = win0_5.index t 0 * 400 + 1 * r.val; rw [hi.1]; omega
  · show e.val = win0_5.index t 1 * 128 + 1 * e.val; rw [hi.2]; omega

/-- The left output after the region: the left 128 columns of the kernel's second product, at every row. -/
theorem final0_4 (c : Dev nD) : (dat0 (F := Ideal) V c).arrAt 4 cfg0.N = fun j : S10000x128.Idx => Cert.Sage.kz (V c main_arg0) (V c main_arg1) (V c main_v4) (V c main_v9) ⟨(j 0).val, idx2_lt0 j⟩ (Cert.Sage.lo2 ⟨(j 1).val, idx2_lt1 j⟩) :=
  (dat0 (F := Ideal) V c).arrAt_eq_of_cover 4 (G4 V c) (fun t _ => flushed0_4_eq V c t) cover0_4

/-- The right output after the region: the right 128 columns of the kernel's second product, at every row. -/
theorem final0_5 (c : Dev nD) : (dat0 (F := Ideal) V c).arrAt 5 cfg0.N = fun j : S10000x128.Idx => Cert.Sage.kz (V c main_arg0) (V c main_arg1) (V c main_v4) (V c main_v9) ⟨(j 0).val, idx2_lt0 j⟩ (Cert.Sage.hi2 ⟨(j 1).val, idx2_lt1 j⟩) :=
  (dat0 (F := Ideal) V c).arrAt_eq_of_cover 5 (G5 V c) (fun t _ => flushed0_5_eq V c t) cover0_5

end

end Cert.KernelIdeal.HandValue

end
-- ==== Proof.KI.Final0Deg.lean ====
/- The FIRST call's third output array — the divisor column — after its 25 grid points, at the ideal values: row R
   holds (Σ_k A[R,k]) + 1 of the adjacency array A as the region finds it. Point t's block of the column holds rows
   400·t … 400·t + 399; what the body stores there is, at local row r, the sum of local row r of the adjacency block
   plus one, and the adjacency block at point t holds rows 400·t … 400·t + 399 of A; every point writes back and
   row R lies in the block of point R / 400. -/
import proofs.«124770_g29755533426829_cont_9to1_2196_3_alg».proof.Proof.KI.R0Pieces
import proofs.«124770_g29755533426829_cont_9to1_2196_3_alg».proof.Proof.KI.Blocks0
import proofs.«124770_g29755533426829_cont_9to1_2196_3_alg».proof.Proof.KI.Pay0Value
import proofs.«124770_g29755533426829_cont_9to1_2196_3_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The divisor of row `R`, at an index of the column whose row coordinate is `R`. -/
theorem deg_at (adj : Cert.Sage.Mat 10000 10000) (j : (⟨2, ![10000, 1]⟩ : Shape).Idx) (R : Fin 10000) (h0 : (j 0).val = R.val) :
    Cert.Sage.deg adj ⟨(j 0).val, idx2_lt0 j⟩ = (∑ k : Fin 10000, adj (ix2 R k)) + 1 := by
  have hR : (⟨(j 0).val, idx2_lt0 j⟩ : Fin 10000) = R := Fin.ext h0
  rw [hR]
  rfl

/-- The divisor column's window is at block row `t`, block column 0, at point `t`. -/
theorem index0_6 : ∀ t : Fin cfg0.N, win0_6.index t (0 : Fin 2) = t.val ∧ win0_6.index t (1 : Fin 2) = 0 :=
  (by decide +kernel : ∀ t : Fin grid0.N, _)

/-- A point's number is below 25. -/
theorem point0_lt (t : Fin cfg0.N) : t.val < 25 :=
  Nat.lt_of_lt_of_eq t.isLt (show cfg0.N = 25 from N_0)

variable (V : (c : Dev nD) → (b : Ref sig .tc) → Buf (Elt Ideal) ((c : Thread nD τ).loc b))

/-- The column's buffer after the body at any point: the row sums of the adjacency block, plus one. -/
theorem outsAt0_deg (c : Dev nD) (t : Fin cfg0.N) : (outsAt0 (F := Ideal) V c t).2.2 = k0_pay2 (iblk0 V c 0 t) := by
  rw [outsAt0_val]

/-- Element `y` of what the body leaves in the column's buffer at point `t` is the divisor of `y`'s row in the array. -/
theorem elem0_6 (c : Dev nD) (t : Fin cfg0.N) (y : S400x1.Idx) :
    k0_pay2 (F := Ideal) (iblk0 V c 0 t) y
      = (fun j : S10000x1.Idx => Cert.Sage.deg (V c main_arg1) ⟨(j 0).val, idx2_lt0 j⟩) (((cfg0.win 6).blk t).view.emb y) := by
  obtain ⟨r, u, rfl⟩ : ∃ (r : Fin 400) (u : Fin 1), y = ix2 r u := ⟨y 0, y 1, eq_ix2 y⟩
  obtain rfl : u = 0 := Subsingleton.elim _ _
  obtain ⟨e60, e61⟩ := index0_6 t
  have ht := point0_lt t
  have hr : r.val < 400 := r.isLt
  obtain ⟨R, hR⟩ : ∃ R : Fin 10000, R.val = 400 * t.val + r.val := ⟨⟨400 * t.val + r.val, by omega⟩, rfl⟩
  have p0 : ((((cfg0.win 6).blk t).view.emb (ix2 r (0 : Fin 1))) 0).val = R.val := by
    show win0_6.index t (0 : Fin 2) * 400 + 1 * r.val = R.val; omega
  refine (k0_pay2_apply _ r).trans ?_
  refine Eq.trans ?_ (deg_at _ _ R p0).symm
  refine congrArg (· + 1) (Finset.sum_congr rfl fun k _ => ?_)
  rw [iblk0_0_apply V c t r k]
  exact congrArg (V c main_arg1) (congrArg (fun z : Fin 10000 => ix2 z k) (Fin.ext hR.symm))

/-- WHAT POINT `t` WRITES BACK to the divisor column is block `t` of the column of divisors. -/
theorem flushed0_6_eq (c : Dev nD) (t : Fin cfg0.N) :
    (dat0 (F := Ideal) V c).flushed 6 t
      = ((cfg0.win 6).blk t).view.read (Elt Ideal) (fun j : S10000x1.Idx => Cert.Sage.deg (V c main_arg1) ⟨(j 0).val, idx2_lt0 j⟩) := by
  show (cfg0.win 6).cut (grid0.coords t) ((dat0 V c).after 6 t) = _
  rw [after0_6, outsAt0_deg]
  funext y
  exact elem0_6 V c t y

/-- An index of the column is in point `t`'s block iff each coordinate is in the block's range on its axis. -/
theorem mem_blk0_6 (t : Fin cfg0.N) (i : S10000x1.Idx) :
    i ∈ ((cfg0.win 6).blk t).view.set ↔ ∀ a : Fin 2, win0_6.index t a * S400x1.size a ≤ (i a).val ∧ (i a).val < win0_6.index t a * S400x1.size a + S400x1.size a := by
  show i ∈ ((View.whole main_v10_2).slice (win0_6.rect t)).set ↔ _
  rw [View.set_slice_whole, Rect.mem_set_unit]
  exact Iff.rfl

/-- Row R is in the block of point R / 400, and every point writes back. -/
theorem cover0_6_arr (i : S10000x1.Idx) :
    ∃ t : Fin cfg0.N, (cfg0.win 6).flush t = true ∧ i ∈ ((cfg0.win 6).blk t).view.set := by
  have hi0 : (i 0).val < 10000 := (i 0).isLt
  have hi1 : (i 1).val < 1 := (i 1).isLt
  obtain ⟨t, htv⟩ : ∃ t : Fin cfg0.N, t.val = (i 0).val / 400 :=
    ⟨⟨(i 0).val / 400, by rw [show cfg0.N = 25 from N_0]; omega⟩, rfl⟩
  obtain ⟨e60, e61⟩ := index0_6 t
  refine ⟨t, flush0_6 t, ?_⟩
  rw [mem_blk0_6]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 1 ≤ (i 1).val ∧ (i 1).val < win0_6.index t (1 : Fin 2) * 1 + 1; omega

/-- THE DIVISOR COLUMN after all 25 points: row R at (Σ_k A[R,k]) + 1. -/
theorem final0_6 (c : Dev nD) :
    (dat0 (F := Ideal) V c).arrAt 6 cfg0.N = fun j : S10000x1.Idx => Cert.Sage.deg (V c main_arg1) ⟨(j 0).val, idx2_lt0 j⟩ :=
  (dat0 (F := Ideal) V c).arrAt_eq_of_cover 6 (fun j : S10000x1.Idx => Cert.Sage.deg (V c main_arg1) ⟨(j 0).val, idx2_lt0 j⟩)
    (fun t _ => flushed0_6_eq V c t) (fun i => cover0_6_arr i)

end Cert.KernelIdeal.HandValue

end
-- ==== Proof.lean ====
/-
  Two stacked neighbourhood-averaging layers over a dense adjacency matrix: for node features f and weights W = [Wa | Wb],
      layer(f) = relu (concat [f, (A f) / deg] Wᵀ),   deg r = (Σ_k A[r,k]) + 1,
  applied twice (W1 on the 256 input features, W2 on the 256 hidden features, 128 outputs).  The reference computes it as
  written.  The kernel rearranges each layer as  relu (f Waᵀ + (A (f Wbᵀ)) / deg): it projects first and aggregates second,
  in two passes over the adjacency matrix's 25 row blocks of 400 rows.  The first pass fills a scratch array with x W1bᵀ at
  the first row block and reads it at every block; per block it forms the hidden rows and, fused, their two second-layer
  products (the self term and the projection to aggregate) together with the rows' degrees.  The second pass aggregates the
  projection over each row block and finishes the second layer.

  Over the extended reals the two arrangements agree when every input entry is a real number and no degree is zero:
  (Σ_i A[r,i] f[i,·] / d) · w = (Σ_i A[r,i] (f[i,·] · w)) / d is distributivity and an exchange of two finite sums, and the
  concatenation splits the contraction over 512 columns into its two halves.  Where a degree is zero the reference itself
  divides by zero, and the two arrangements can differ there; the precondition excludes it.

  The parts: each program terminates and leaves its arguments unchanged (`Claims.frame_p`, `frame_pi`, `frame_ri`); the
  idealization rewrote nothing (`preserves`); the kernel's result array is the network of `Spec.lean` — the three arrays the
  first pass leaves (`final0_4`, `final0_5`, `final0_6`), the second pass's array over them, the rearranged weights read back
  entry by entry (`kernel_out_of'`) — and so is the reference's (`algebraic_of`).
-/
import proofs.«124770_g29755533426829_cont_9to1_2196_3_alg».proof.Defs
import proofs.«124770_g29755533426829_cont_9to1_2196_3_alg».proof.Proof.Gen.Kernel
import proofs.«124770_g29755533426829_cont_9to1_2196_3_alg».proof.Proof.Gen.KernelIdeal
import proofs.«124770_g29755533426829_cont_9to1_2196_3_alg».proof.Proof.Gen.ReferenceIdeal
import proofs.«124770_g29755533426829_cont_9to1_2196_3_alg».proof.Proof.Gen.Pre_finite_inputs
import proofs.«124770_g29755533426829_cont_9to1_2196_3_alg».proof.Proof.Claims
import proofs.«124770_g29755533426829_cont_9to1_2196_3_alg».proof.Proof.KI.Final0
import proofs.«124770_g29755533426829_cont_9to1_2196_3_alg».proof.Proof.KI.Final0Deg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves,
  Claims.algebraic_of (fun m ρ c => Cert.KernelIdeal.HandValue.kernel_out_of'
    (fun V c => Cert.KernelIdeal.HandValue.final0_4 V c) (fun V c => Cert.KernelIdeal.HandValue.final0_5 V c)
    (fun V c => Cert.KernelIdeal.HandValue.final0_6 V c) m ρ c)⟩

end Cert.Proof

end
